-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S40 .f32) (main_v63 : IVec S_ 1) (main_v67 : IVec S_ 1) : IVec S_ 1 :=
  let main_v68 : IVec S_ 1 := andi main_v63 main_v67
  let main_v69 : FVec F S40 .f32 := Host.absf main_arg15
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x40 .f32) (main_arg15 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x40 .f32 := Host.absf main_arg14
  let main_cst_24 : FVec F S_ .f32 := constant S_ .f32 0x7F800000#32
  let main_v65 : FVec F S64x40 .f32 := broadcastInDim S64x40 ![] bcast_S_S64x40 main_cst_24
  let main_v66 : IVec S64x40 1 := cmpf .olt main_v64 main_v65
  let main_c_25 : IVec S_ 1 := constantI S_ 1 1#1
  let main_v67 : IVec S_ 1 := (fun x v => Host.reduce IntOp.andi x v reducesTo_S64x40_S_d0_1 h_S_) main_v66 main_c_25
  fn_part4 (F := F) main_arg15 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x64 .f32) (main_arg13 : FVec F S64 .f32) (main_arg14 : FVec F S64x40 .f32) (main_arg15 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x64 .f32) (main_arg13 : FVec F S64 .f32) (main_arg14 : FVec F S64x40 .f32) (main_arg15 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x64 .f32) (main_arg13 : FVec F S64 .f32) (main_arg14 : FVec F S64x40 .f32) (main_arg15 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S625000x128 : Shape := ⟨2, ![625000, 128]⟩
abbrev S10000x128 : Shape := ⟨2, ![10000, 128]⟩
abbrev S10000x1 : Shape := ⟨2, ![10000, 1]⟩
abbrev S1x128 : Shape := ⟨2, ![1, 128]⟩
abbrev S10000 : Shape := ⟨1, ![10000]⟩
abbrev S100000x40 : Shape := ⟨2, ![100000, 40]⟩
abbrev S10000x40 : Shape := ⟨2, ![10000, 40]⟩
abbrev S10000x64 : Shape := ⟨2, ![10000, 64]⟩
abbrev S1x64 : Shape := ⟨2, ![1, 64]⟩
abbrev S1x40 : Shape := ⟨2, ![1, 40]⟩

abbrev nBuf : Space → Nat
  | .hbm => 61
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64x40, .f32⟩
  | .hbm, ⟨15, _⟩ => ⟨S40, .f32⟩
  | .hbm, ⟨16, _⟩ => ⟨S1x625000, .i32⟩
  | .hbm, ⟨17, _⟩ => ⟨S625000, .i32⟩
  | .hbm, ⟨18, _⟩ => ⟨S1x625000, .i32⟩
  | .hbm, ⟨19, _⟩ => ⟨S625000, .i32⟩
  | .hbm, ⟨20, _⟩ => ⟨S_, .f32⟩
  | .hbm, ⟨21, _⟩ => ⟨S625000, .f32⟩
  | .hbm, ⟨22, _⟩ => ⟨S_, .f32⟩
  | .hbm, ⟨23, _⟩ => ⟨S100000, .f32⟩
  | .hbm, ⟨24, _⟩ => ⟨S625000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S625000, .i32⟩
  | .hbm, ⟨35, _⟩ => ⟨S625000, .i1⟩
  | .hbm, ⟨36, _⟩ => ⟨S_, .i32⟩
  | .hbm, ⟨37, _⟩ => ⟨S625000, .i32⟩
  | .hbm, ⟨38, _⟩ => ⟨S625000, .i32⟩
  | .hbm, ⟨39, _⟩ => ⟨S625000, .i32⟩
  | .hbm, ⟨40, _⟩ => ⟨S625000x1, .i32⟩
  | .hbm, ⟨41, _⟩ => ⟨S625000x128, .f32⟩
  | .hbm, ⟨42, _⟩ => ⟨S_, .f32⟩
  | .hbm, ⟨43, _⟩ => ⟨S100000x128, .f32⟩
  | .hbm, ⟨44, _⟩ => ⟨S625000x1, .i32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S625000, .i32⟩
  | .hbm, ⟨49, _⟩ => ⟨S625000, .i1⟩
  | .hbm, ⟨50, _⟩ => ⟨S_, .i32⟩
  | .hbm, ⟨51, _⟩ => ⟨S625000, .i32⟩
  | .hbm, ⟨52, _⟩ => ⟨S625000, .i32⟩
  | .hbm, ⟨53, _⟩ => ⟨S625000, .i32⟩
  | .hbm, ⟨54, _⟩ => ⟨S625000x1, .i32⟩
  | .hbm, ⟨55, _⟩ => ⟨S625000x128, .f32⟩
  | .hbm, ⟨56, _⟩ => ⟨S_, .f32⟩
  | .hbm, ⟨57, _⟩ => ⟨S100000x128, .f32⟩
  | .hbm, ⟨58, _⟩ => ⟨S625000x1, .i32⟩
  | .hbm, ⟨59, _⟩ => ⟨S100000x128, .f32⟩
  | .hbm, ⟨60, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S128, .f32⟩
  | .local _ .vmem, ⟨24, _⟩ => ⟨S128x64, .f32⟩
  | .local _ .vmem, ⟨25, _⟩ => ⟨S64, .f32⟩
  | .local _ .vmem, ⟨26, _⟩ => ⟨S64x40, .f32⟩
  | .local _ .vmem, ⟨27, _⟩ => ⟨S40, .f32⟩
  | .local _ .vmem, ⟨28, _⟩ => ⟨S10000x40, .f32⟩
  | .local _ .vmem, ⟨29, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg12_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem12_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x40 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S40 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S10000x40 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  reduces_S10000x128_S10000 : S10000x128.Reduces [1] S10000
  shapeCasts_S10000_S10000x1 : S10000.ShapeCasts S10000x1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S625000x1_S625000_n_0_0_1_wf : ScatterDims.WF S100000 S625000x1 S625000 [] [0] [0] 1
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x40.size a ≤ S64x40.size a
  hwx1_10 : ∀ i : grid1.Coords, EltTy.bits .f32 = 32 ∨ (Rect.block (s := S64x40) S64x40.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S40.size a ≤ S40.size a
  hwx1_11 : ∀ i : grid1.Coords, EltTy.bits .f32 = 32 ∨ (Rect.block (s := S40) S40.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S10000x40.size a ≤ S100000x40.size a
  hwx1_12 : ∀ i : grid1.Coords, EltTy.bits .f32 = 32 ∨ (Rect.block (s := S100000x40) S10000x40.size (cc1_transform_12 i) (hinb1_12 i)).WholeWords (EltTy.packing .f32)

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg14) S64x40.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg15) S40.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v34) S10000x40.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 187
  | .vmem => 0
  | .smem => 0
  | _ => 0

abbrev hbmTy0_0 (i : Nat) : BufTy := match i % 128 with
  | 0 => ⟨S100000x128, .f32⟩
  | 1 => ⟨S2x625000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x64, .f32⟩
  | 13 => ⟨S64, .f32⟩
  | 14 => ⟨S64x40, .f32⟩
  | 15 => ⟨S40, .f32⟩
  | 16 => ⟨S1x625000, .i32⟩
  | 17 => ⟨S625000, .i32⟩
  | 18 => ⟨S1x625000, .i32⟩
  | 19 => ⟨S625000, .i32⟩
  | 20 => ⟨S_, .i32⟩
  | 21 => ⟨S625000, .i32⟩
  | 22 => ⟨S625000, .i1⟩
  | 23 => ⟨S_, .i32⟩
  | 24 => ⟨S625000, .i32⟩
  | 25 => ⟨S625000, .i32⟩
  | 26 => ⟨S625000, .i32⟩
  | 27 => ⟨S625000x1, .i32⟩
  | 28 => ⟨S625000x128, .f32⟩
  | 29 => ⟨S_, .f32⟩
  | 30 => ⟨S100000x128, .f32⟩
  | 31 => ⟨S625000x1, .i32⟩
  | 32 => ⟨S100000x128, .f32⟩
  | 33 => ⟨S_, .f32⟩
  | 34 => ⟨S625000, .f32⟩
  | 35 => ⟨S_, .f32⟩
  | 36 => ⟨S100000, .f32⟩
  | 37 => ⟨S625000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S_, .i32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x128, .f32⟩
  | 65 => ⟨S100000x128, .f32⟩
  | 66 => ⟨S100000x128, .f32⟩
  | 67 => ⟨S_, .f32⟩
  | 68 => ⟨S_, .f32⟩
  | 69 => ⟨S_, .f32⟩
  | 70 => ⟨S_, .f32⟩
  | 71 => ⟨S100000, .f32⟩
  | 72 => ⟨S100000x1, .f32⟩
  | 73 => ⟨S100000x1, .f32⟩
  | 74 => ⟨S100000x1, .f32⟩
  | 75 => ⟨S_, .f32⟩
  | 76 => ⟨S_, .i1⟩
  | 77 => ⟨S_, .f32⟩
  | 78 => ⟨S_, .f32⟩
  | 79 => ⟨S100000x1, .f32⟩
  | 80 => ⟨S100000x1, .f32⟩
  | 81 => ⟨S100000x128, .f32⟩
  | 82 => ⟨S100000x128, .f32⟩
  | 83 => ⟨S_, .f32⟩
  | 84 => ⟨S100000x1, .f32⟩
  | 85 => ⟨S100000x1, .f32⟩
  | 86 => ⟨S100000x1, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .i32⟩
  | 99 => ⟨S625000, .i32⟩
  | 100 => ⟨S625000, .i1⟩
  | 101 => ⟨S_, .i32⟩
  | 102 => ⟨S625000, .i32⟩
  | 103 => ⟨S625000, .i32⟩
  | 104 => ⟨S625000, .i32⟩
  | 105 => ⟨S625000x1, .i32⟩
  | 106 => ⟨S625000x128, .f32⟩
  | 107 => ⟨S_, .f32⟩
  | 108 => ⟨S100000x128, .f32⟩
  | 109 => ⟨S625000x1, .i32⟩
  | 110 => ⟨S100000x128, .f32⟩
  | 111 => ⟨S_, .f32⟩
  | 112 => ⟨S625000, .f32⟩
  | 113 => ⟨S_, .f32⟩
  | 114 => ⟨S100000, .f32⟩
  | 115 => ⟨S625000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S_, .i32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S_, .f32⟩
  | 18 => ⟨S_, .f32⟩
  | 19 => ⟨S_, .f32⟩
  | 20 => ⟨S_, .f32⟩
  | 21 => ⟨S100000, .f32⟩
  | 22 => ⟨S100000x1, .f32⟩
  | 23 => ⟨S100000x1, .f32⟩
  | 24 => ⟨S100000x1, .f32⟩
  | 25 => ⟨S_, .f32⟩
  | 26 => ⟨S_, .i1⟩
  | 27 => ⟨S_, .f32⟩
  | 28 => ⟨S_, .f32⟩
  | 29 => ⟨S100000x1, .f32⟩
  | 30 => ⟨S100000x1, .f32⟩
  | 31 => ⟨S100000x128, .f32⟩
  | 32 => ⟨S100000x128, .f32⟩
  | 33 => ⟨S_, .f32⟩
  | 34 => ⟨S100000x1, .f32⟩
  | 35 => ⟨S100000x1, .f32⟩
  | 36 => ⟨S100000x1, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x40, .f32⟩
  | 56 => ⟨S1x40, .f32⟩
  | 57 => ⟨S100000x40, .f32⟩
  | 58 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_call0_cst_3 : Ref sig .tc := ⟨.hbm, 75, rfl⟩
abbrev main_call0_v13 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_7 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_call1_cst : Ref sig .tc := ⟨.hbm, 95, rfl⟩
abbrev main_call1_v0 : Ref sig .tc := ⟨.hbm, 96, rfl⟩
abbrev main_v47 : Ref sig .tc := ⟨.hbm, 97, rfl⟩
abbrev main_c_8 : Ref sig .tc := ⟨.hbm, 98, rfl⟩
abbrev main_v48 : Ref sig .tc := ⟨.hbm, 99, rfl⟩
abbrev main_v49 : Ref sig .tc := ⟨.hbm, 100, rfl⟩
abbrev main_c_9 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_10 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_11 : Ref sig .tc := ⟨.hbm, 111, rfl⟩
abbrev main_v58 : Ref sig .tc := ⟨.hbm, 112, rfl⟩
abbrev main_cst_12 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_13 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_14 : Ref sig .tc := ⟨.hbm, 129, rfl⟩
abbrev main_v73 : Ref sig .tc := ⟨.hbm, 130, rfl⟩
abbrev main_v74 : Ref sig .tc := ⟨.hbm, 131, rfl⟩
abbrev main_cst_15 : Ref sig .tc := ⟨.hbm, 132, rfl⟩
abbrev main_v75 : Ref sig .tc := ⟨.hbm, 133, rfl⟩
abbrev main_v76 : Ref sig .tc := ⟨.hbm, 134, rfl⟩
abbrev main_c_16 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_cst_1 : Ref sig .tc := ⟨.hbm, 146, rfl⟩
abbrev main_call2_v8 : Ref sig .tc := ⟨.hbm, 147, rfl⟩
abbrev main_call2_cst_2 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_v12 : Ref sig .tc := ⟨.hbm, 152, rfl⟩
abbrev main_call2_cst_3 : Ref sig .tc := ⟨.hbm, 153, rfl⟩
abbrev main_call2_v13 : Ref sig .tc := ⟨.hbm, 154, rfl⟩
abbrev main_call2_cst_4 : Ref sig .tc := ⟨.hbm, 155, rfl⟩
abbrev main_call2_call0_v0 : Ref sig .tc := ⟨.hbm, 156, rfl⟩
abbrev main_call2_call0_v1 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_17 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_call3_cst : Ref sig .tc := ⟨.hbm, 173, rfl⟩
abbrev main_call3_v0 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_call4_cst : Ref sig .tc := ⟨.hbm, 180, rfl⟩
abbrev main_call4_v0 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x40_S100000x40_1_0_0_1_n_n_wf : DotDims.WF S100000x64 S64x40 S100000x40 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.LibLayerNorm.lean ====
/-
  Layer normalisation of one row, on the extended reals.

  A row `a` over a finite index type is normalised by subtracting its mean `μ = (∑ a) / c` and scaling by
  the inverse root of `v = (∑ (a - μ)²) / c + ε`.  Written with a reciprocal square root, `(a j - μ) · rsqrt v`,
  or with a quotient, `(a j - μ) / sqrt v`, it is one function as soon as `c` is a positive real and
  `0 < ε`: a square is never negative on the extended reals (`⊥ · ⊥ = ⊤`), so neither is a sum of squares nor
  its quotient by a positive real, hence `0 < v`; and for `0 < v` — a positive real, or `⊤` — the reciprocal root
  is the inverse of the root (`rsqrt ⊤ = 0 = ⊤⁻¹`).  No entry of the row needs to be finite.
-/
import Idealize.ShloMosaic.PureOps.Ideal

noncomputable section

namespace Cert.LayerNorm

open Idealize.ShloMosaic

/-- A square is never negative, at the infinities too. -/
theorem mul_self_nonneg (a : EReal) : 0 ≤ a * a := by
  induction a using EReal.rec with
  | bot => simp
  | coe r => exact_mod_cast _root_.mul_self_nonneg r
  | top => simp

/-- Above zero the reciprocal square root is the inverse of the square root: multiplying by the one is dividing by
    the other, for every extended real `x`. -/
theorem mul_rsqrt_eq_div_sqrt (x y : EReal) (hy : 0 < y) : x * Ideal.rsqrt y = Ideal.div x (Ideal.sqrt y) := by
  induction y using EReal.rec with
  | bot => exact absurd hy (by simp)
  | top =>
    rw [Ideal.rsqrt_top, Ideal.sqrt_top, Ideal.div, if_neg EReal.top_ne_zero, EReal.inv_top]
  | coe r =>
    have hr : 0 < r := by exact_mod_cast hy
    have hs : Real.sqrt r ≠ 0 := (Real.sqrt_pos.mpr hr).ne'
    have h1 : Ideal.rsqrt (r : EReal) = (((Real.sqrt r)⁻¹ : ℝ) : EReal) := by
      rw [Ideal.rsqrt_coe, if_neg (not_lt.mpr hr.le), if_neg hr.ne']
    have h2 : Ideal.sqrt (r : EReal) = ((Real.sqrt r : ℝ) : EReal) := by
      rw [Ideal.sqrt_coe, if_neg (not_lt.mpr hr.le)]
    rw [h1, h2, Ideal.div, if_neg (by exact_mod_cast hs), ← EReal.coe_inv]

variable {ι : Type*} [Fintype ι]

/-- The row's mean: its total over the count `c`. -/
def mean (c : EReal) (a : ι → EReal) : EReal := Ideal.div (∑ k, a k) c

/-- The mean squared deviation from the mean, plus `ε`. -/
def spread (c e : EReal) (a : ι → EReal) : EReal :=
  Ideal.div (∑ k, (a k - mean c a) * (a k - mean c a)) c + e

/-- The normalised entry, scaled by the reciprocal square root. -/
def byRsqrt (c e : EReal) (a : ι → EReal) (j : ι) : EReal := (a j - mean c a) * Ideal.rsqrt (spread c e a)

/-- The normalised entry, divided by the square root. -/
def bySqrt (c e : EReal) (a : ι → EReal) (j : ι) : EReal := Ideal.div (a j - mean c a) (Ideal.sqrt (spread c e a))

/-- With a positive real count and a positive `ε` the quantity under the root is positive. -/
theorem spread_pos {r : ℝ} (hr : 0 < r) {e : EReal} (he : 0 < e) (a : ι → EReal) : 0 < spread (r : EReal) e a := by
  unfold spread
  rw [Ideal.div_coe hr.ne']
  have hA : (0 : EReal) ≤ (∑ k, (a k - mean (r : EReal) a) * (a k - mean (r : EReal) a)) * ((1 / r : ℝ) : EReal) :=
    mul_nonneg (Finset.sum_nonneg fun k _ => mul_self_nonneg _) (by exact_mod_cast (one_div_pos.mpr hr).le)
  exact he.trans_le (le_add_of_nonneg_left hA)

/-- The two spellings of the normalised row are one function. -/
theorem byRsqrt_eq_bySqrt {r : ℝ} (hr : 0 < r) {e : EReal} (he : 0 < e) (a : ι → EReal) (j : ι) :
    byRsqrt (r : EReal) e a j = bySqrt (r : EReal) e a j :=
  mul_rsqrt_eq_div_sqrt _ _ (spread_pos hr he a)

end Cert.LayerNorm

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«104980_j58050777972868_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.Spec.lean ====
/-
  A two-layer mean-aggregating graph network with layer normalisation and a classifier head, as one function
  of whole arrays on the extended reals.

  For one node with own feature row `xr` and aggregated-neighbour mean row `mr`, a layer computes
      h_q = (Σ_a mr_a · Wl_{a,q}) + bl_q + (Σ_a xr_a · Wr_{a,q}),
  normalises the row h by its mean and the reciprocal root of its mean squared deviation plus ε, scales by g,
  shifts by be and clips at zero (`lnRow`).  The head maps a row through relu(· W1 + b1) · W2 + b2 (`headRow`).
  Every entry of a layer's result depends on one row of its two input arrays only (`layerArr`, `headArr`).
  The network applies the layer twice — the second time to the first layer's result and to its aggregate —
  and then the head (`net`).  How neighbours are aggregated (`agg`) and how an aggregate is turned into a
  mean (`mean`) are parameters: two programs that aggregate alike and whose means agree compute the same `net`.
-/
import Idealize.ShloMosaic.PureOps.Ideal
import Idealize.ShloMosaic.Lib.ValueIdx
import proofs.«104980_j58050777972868_2_alg».proof.Proof.LibLayerNorm
import proofs.«104980_j58050777972868_2_alg».proof.Proof.LibDense

noncomputable section

namespace Cert.Net

open Idealize.ShloMosaic Idealize.ShloMosaic.ValueIdx Cert.LayerNorm Cert.Dense

/-- The row length 128 as a float: the count the row mean divides by. -/
abbrev cN : EReal := Ideal.ofBits .f32 0x43000000#32
/-- The ε added under the root (the f32 nearest 1e-5; the same word in both programs). -/
abbrev eN : EReal := Ideal.ofBits .f32 0x3727C5AC#32

variable {M K H' N : Nat}

/-- Entry j of one node's layer: the pre-activation row, layer-normalised, scaled, shifted, clipped at zero. -/
def lnRow (mr xr : Fin K → EReal) (Wl Wr : (⟨2, ![K, K]⟩ : Shape).Idx → EReal) (bl g be : Fin K → EReal) (j : Fin K) : EReal :=
  max (byRsqrt cN eN (fun q => (∑ a : Fin K, mr a * Wl (ix2 a q)) + bl q + (∑ a : Fin K, xr a * Wr (ix2 a q))) j * g j + be j) z

/-- Entry c of the head on one row: relu(row · W1 + b1) · W2 + b2. -/
def headRow (hr : Fin K → EReal) (W1 : (⟨2, ![K, H']⟩ : Shape).Idx → EReal) (b1 : Fin H' → EReal)
    (W2 : (⟨2, ![H', N]⟩ : Shape).Idx → EReal) (b2 : Fin N → EReal) (c : Fin N) : EReal :=
  (∑ k : Fin H', max ((∑ j : Fin K, hr j * W1 (ix2 j k)) + b1 k) z * W2 (ix2 k c)) + b2 c

/-- A layer over whole arrays: row r of the result is `lnRow` of row r of the mean array and of the feature array. -/
def layerArr (Mn X : FVec Ideal ⟨2, ![M, K]⟩ .f32) (Wl Wr : FVec Ideal ⟨2, ![K, K]⟩ .f32) (bl g be : FVec Ideal ⟨1, ![K]⟩ .f32) :
    FVec Ideal ⟨2, ![M, K]⟩ .f32 :=
  fun i => lnRow (fun a => Mn (ix2 (i 0) a)) (fun a => X (ix2 (i 0) a)) Wl Wr (fun q => bl (ix1 q)) (fun q => g (ix1 q))
    (fun q => be (ix1 q)) (i 1)

/-- The head over whole arrays, row by row. -/
def headArr (Hd : FVec Ideal ⟨2, ![M, K]⟩ .f32) (W1 : FVec Ideal ⟨2, ![K, H']⟩ .f32) (b1 : FVec Ideal ⟨1, ![H']⟩ .f32)
    (W2 : FVec Ideal ⟨2, ![H', N]⟩ .f32) (b2 : FVec Ideal ⟨1, ![N]⟩ .f32) : FVec Ideal ⟨2, ![M, N]⟩ .f32 :=
  fun i => headRow (fun j => Hd (ix2 (i 0) j)) W1 (fun k => b1 (ix1 k)) W2 (fun q => b2 (ix1 q)) (i 1)

theorem layerArr_apply (Mn X : FVec Ideal ⟨2, ![M, K]⟩ .f32) (Wl Wr : FVec Ideal ⟨2, ![K, K]⟩ .f32) (bl g be : FVec Ideal ⟨1, ![K]⟩ .f32)
    (r : Fin M) (j : Fin K) :
    layerArr Mn X Wl Wr bl g be (ix2 r j)
      = lnRow (fun a => Mn (ix2 r a)) (fun a => X (ix2 r a)) Wl Wr (fun q => bl (ix1 q)) (fun q => g (ix1 q)) (fun q => be (ix1 q)) j := rfl

theorem headArr_apply (Hd : FVec Ideal ⟨2, ![M, K]⟩ .f32) (W1 : FVec Ideal ⟨2, ![K, H']⟩ .f32) (b1 : FVec Ideal ⟨1, ![H']⟩ .f32)
    (W2 : FVec Ideal ⟨2, ![H', N]⟩ .f32) (b2 : FVec Ideal ⟨1, ![N]⟩ .f32) (r : Fin M) (c : Fin N) :
    headArr Hd W1 b1 W2 b2 (ix2 r c) = headRow (fun j => Hd (ix2 r j)) W1 (fun k => b1 (ix1 k)) W2 (fun q => b2 (ix1 q)) c := rfl

/-- The network: layer, aggregate, layer, head. -/
def net (mean agg : FVec Ideal ⟨2, ![M, K]⟩ .f32 → FVec Ideal ⟨2, ![M, K]⟩ .f32) (x : FVec Ideal ⟨2, ![M, K]⟩ .f32)
    (Wl1 : FVec Ideal ⟨2, ![K, K]⟩ .f32) (bl1 : FVec Ideal ⟨1, ![K]⟩ .f32) (Wr1 : FVec Ideal ⟨2, ![K, K]⟩ .f32) (g1 be1 : FVec Ideal ⟨1, ![K]⟩ .f32)
    (Wl2 : FVec Ideal ⟨2, ![K, K]⟩ .f32) (bl2 : FVec Ideal ⟨1, ![K]⟩ .f32) (Wr2 : FVec Ideal ⟨2, ![K, K]⟩ .f32) (g2 be2 : FVec Ideal ⟨1, ![K]⟩ .f32)
    (Wc1 : FVec Ideal ⟨2, ![K, H']⟩ .f32) (bc1 : FVec Ideal ⟨1, ![H']⟩ .f32) (Wc2 : FVec Ideal ⟨2, ![H', N]⟩ .f32) (bc2 : FVec Ideal ⟨1, ![N]⟩ .f32) :
    FVec Ideal ⟨2, ![M, N]⟩ .f32 :=
  headArr (layerArr (mean (agg (layerArr (mean (agg x)) x Wl1 Wr1 bl1 g1 be1))) (layerArr (mean (agg x)) x Wl1 Wr1 bl1 g1 be1) Wl2 Wr2 bl2 g2 be2)
    Wc1 bc1 Wc2 bc2

end Cert.Net

end
-- ==== Proof.LibRowNorm.lean ====
/-
  A layer normalisation along the rows of an [a, b] vector, in a kernel's spelling, read at one index on the
  extended reals.

  The body takes the row sums, views them as an [a, 1] column, divides by the splat count (the column of means),
  repeats the column along the rows and subtracts, multiplies the deviations by themselves, sums and divides again,
  adds the splat ε, takes the reciprocal root, repeats that column and multiplies.  At (p, n) every step reads row p
  only: the column of means is the mean of row p, and the whole is the reciprocal-root normalisation of row p at n.
-/
import proofs.«104980_j58050777972868_2_alg».proof.Proof.LibRowOps
import proofs.«104980_j58050777972868_2_alg».proof.Proof.LibLayerNorm

noncomputable section

namespace Cert.RowNorm

open Idealize.ShloMosaic Idealize.ShloMosaic.ValueIdx Cert.RowOps Cert.LayerNorm

variable {a b : Nat}

/-- The column of row means at (p, u): the mean of row p. -/
theorem colMean_apply (T : FVec Ideal ⟨2, ![a, b]⟩ .f32) (c : Ideal .f32) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (p : Fin a) (u : Fin 1) :
    divf (shapeCast ⟨2, ![a, 1]⟩ (multiReduction .add [1] ⟨1, ![a]⟩ T acc h hφ hacc) hs) (broadcast ⟨2, ![a, 1]⟩ c) (ix2 p u)
      = mean c (fun k => T (ix2 p k)) := by
  rw [divf_apply, column_apply, rowSum_apply, broadcast_apply]
  rfl

/-- A vector less a column repeated along its rows, at (p, k). -/
theorem lessCol_apply (T : FVec Ideal ⟨2, ![a, b]⟩ .f32) (M : FVec Ideal ⟨2, ![a, 1]⟩ .f32)
    (hb : (⟨2, ![a, 1]⟩ : Shape).Broadcasts ⟨2, ![a, b]⟩) (p : Fin a) (k : Fin b) :
    subf T (broadcastTo ⟨2, ![a, b]⟩ M hb) (ix2 p k) = T (ix2 p k) - M (ix2 p (0 : Fin 1)) := by
  rw [subf_apply, spread_apply]

/-- A reciprocal root taken entry by entry. -/
theorem rsqrt_apply {s : Shape} (x : FVec Ideal s .f32) (i : s.Idx) : rsqrt x i = Ideal.rsqrt (x i) := rfl

/-- The reciprocal-root column at (p, u), from the squared deviations `Q`: one over the root of their row mean plus ε. -/
theorem rsqrtCol_apply (Q : FVec Ideal ⟨2, ![a, b]⟩ .f32) (c e : Ideal .f32) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (p : Fin a) (u : Fin 1) :
    rsqrt (addf (divf (shapeCast ⟨2, ![a, 1]⟩ (multiReduction .add [1] ⟨1, ![a]⟩ Q acc h hφ hacc) hs) (broadcast ⟨2, ![a, 1]⟩ c))
        (broadcast ⟨2, ![a, 1]⟩ e)) (ix2 p u)
      = Ideal.rsqrt (Ideal.div (∑ k : Fin b, Q (ix2 p k)) c + e) := by
  rw [rsqrt_apply, addf_apply, divf_apply, column_apply, rowSum_apply, broadcast_apply, broadcast_apply]

/-- The normalised vector at (p, n): the reciprocal-root normalisation of row p at n. -/
theorem rowNorm_apply (T : FVec Ideal ⟨2, ![a, b]⟩ .f32) (c e : Ideal .f32) (acc : BitVec FTy.f32.bits)
    (h : (⟨2, ![a, b]⟩ : Shape).Reduces [1] ⟨1, ![a]⟩) (hφ : FKind.Formats .f32) (hacc : acc = FKind.add.neutral .f32 hφ)
    (hs : (⟨1, ![a]⟩ : Shape).ShapeCasts ⟨2, ![a, 1]⟩) (hb : (⟨2, ![a, 1]⟩ : Shape).Broadcasts ⟨2, ![a, b]⟩)
    (p : Fin a) (n : Fin b) :
    mulf (subf T (broadcastTo ⟨2, ![a, b]⟩ (divf (shapeCast ⟨2, ![a, 1]⟩ (multiReduction .add [1] ⟨1, ![a]⟩ T acc h hφ hacc) hs)
          (broadcast ⟨2, ![a, 1]⟩ c)) hb))
        (broadcastTo ⟨2, ![a, b]⟩ (rsqrt (addf (divf (shapeCast ⟨2, ![a, 1]⟩ (multiReduction .add [1] ⟨1, ![a]⟩
          (mulf (subf T (broadcastTo ⟨2, ![a, b]⟩ (divf (shapeCast ⟨2, ![a, 1]⟩ (multiReduction .add [1] ⟨1, ![a]⟩ T acc h hφ hacc) hs)
              (broadcast ⟨2, ![a, 1]⟩ c)) hb))
            (subf T (broadcastTo ⟨2, ![a, b]⟩ (divf (shapeCast ⟨2, ![a, 1]⟩ (multiReduction .add [1] ⟨1, ![a]⟩ T acc h hφ hacc) hs)
              (broadcast ⟨2, ![a, 1]⟩ c)) hb)))
          acc h hφ hacc) hs) (broadcast ⟨2, ![a, 1]⟩ c)) (broadcast ⟨2, ![a, 1]⟩ e))) hb) (ix2 p n)
      = byRsqrt c e (fun k => T (ix2 p k)) n := by
  rw [mulf_apply, lessCol_apply, colMean_apply, spread_apply, rsqrtCol_apply]
  refine congrArg (fun s => (T (ix2 p n) - mean c fun k => T (ix2 p k)) * Ideal.rsqrt (Ideal.div s c + e))
    (Finset.sum_congr rfl fun k _ => ?_)
  rw [mulf_apply, lessCol_apply, colMean_apply]

end Cert.RowNorm

end
-- ==== Proof.KerPay.lean ====
import proofs.«104980_j58050777972868_2_alg».proof.Proof.Gen.KernelIdeal.Skeleton
import proofs.«104980_j58050777972868_2_alg».proof.Proof.Spec
import proofs.«104980_j58050777972868_2_alg».proof.Proof.LibRowNorm
import proofs.«104980_j58050777972868_2_alg».proof.Proof.LibDense

noncomputable section

namespace Cert.KernelIdeal.KPay

open Cert.KernelIdeal Cert.KernelIdeal.Gen Idealize.ShloMosaic Idealize.ShloMosaic.ValueIdx
open Cert.RowOps Cert.Dense Cert.RowNorm Cert.LayerNorm Cert.Net

/-! ## The two region bodies, read at one index

Both bodies compute, for a block of 10000 rows, the pre-activation
`(S ⊙ d) · Wl + bl + X · Wr` (S the neighbour sums, d the per-row reciprocal count held as a column),
normalise each row by its mean and the reciprocal root of its mean squared deviation plus ε, scale by g and shift
by be, and clip at zero; the second body then applies the two-layer head.  Every entry (p, q) reads row p of the
row blocks only. -/

theorem plain128 : IsPlain dot_S10000x128_S128x128_S10000x128_1_0_0_1_n_n := ⟨rfl, rfl, rfl, rfl, rfl, rfl⟩
theorem plain64 : IsPlain dot_S10000x128_S128x64_S10000x64_1_0_0_1_n_n := ⟨rfl, rfl, rfl, rfl, rfl, rfl⟩
theorem plain40 : IsPlain dot_S10000x64_S64x40_S10000x40_1_0_0_1_n_n := ⟨rfl, rfl, rfl, rfl, rfl, rfl⟩

/-- The column of row means of a block. -/
abbrev rowMean (T : FVec Ideal S10000x128 .f32) : FVec Ideal S10000x1 .f32 :=
  divf (shapeCast S10000x1 (multiReduction .add [1] S10000 T 0x00000000#32 reduces_S10000x128_S10000 (.inl rfl) rfl) shapeCasts_S10000_S10000x1)
    (broadcast S10000x1 (Scalar.ofBits .f32 0x43000000#32))

/-- A block less its column of row means. -/
abbrev centred (T : FVec Ideal S10000x128 .f32) : FVec Ideal S10000x128 .f32 :=
  subf T (broadcastTo S10000x128 (rowMean T) broadcasts_S10000x1_S10000x128)

/-- The body's normalisation of a block, at (p, q): the reciprocal-root normalisation of row p at q. -/
theorem norm_apply (T : FVec Ideal S10000x128 .f32) (p : Fin 10000) (q : Fin 128) :
    mulf (centred T) (broadcastTo S10000x128 (rsqrt (addf (divf (shapeCast S10000x1
        (multiReduction .add [1] S10000 (mulf (centred T) (centred T)) 0x00000000#32 reduces_S10000x128_S10000 (.inl rfl) rfl) shapeCasts_S10000_S10000x1)
        (broadcast S10000x1 (Scalar.ofBits .f32 0x43000000#32))) (broadcast S10000x1 (Scalar.ofBits .f32 0x3727C5AC#32))))
      broadcasts_S10000x1_S10000x128) (ix2 p q)
      = byRsqrt cN eN (fun k => T (ix2 p k)) q :=
  rowNorm_apply T _ _ _ _ _ _ _ _ p q

/-- The pre-activation of a block at (p, q). -/
theorem pre_apply (x0 : FVec Ideal S10000x128 .f32) (x2 : FVec Ideal S10000x1 .f32) (x3 : FVec Ideal S128x128 .f32) (x4 : FVec Ideal S128 .f32)
    (x1 : FVec Ideal S10000x128 .f32) (x5 : FVec Ideal S128x128 .f32) (p : Fin 10000) (q : Fin 128) :
    addf (addf (matmul dot_S10000x128_S128x128_S10000x128_1_0_0_1_n_n (some .fp32)
          (mulf x0 (broadcastTo S10000x128 x2 broadcasts_S10000x1_S10000x128)) x3 (constant S10000x128 .f32 0x00000000#32))
        (broadcastTo S10000x128 (shapeCast S1x128 x4 shapeCasts_S128_S1x128) broadcasts_S1x128_S10000x128))
      (matmul dot_S10000x128_S128x128_S10000x128_1_0_0_1_n_n (some .fp32) x1 x5 (constant S10000x128 .f32 0x00000000#32)) (ix2 p q)
      = (∑ a : Fin 128, (x0 (ix2 p a) * x2 (ix2 p (0 : Fin 1))) * x3 (ix2 a q)) + x4 (ix1 q) + ∑ a : Fin 128, x1 (ix2 p a) * x5 (ix2 a q) := by
  rw [addf_apply, addf_apply, rowBias_apply]
  refine congrArg₂ (fun s u => s + x4 (ix1 q) + u)
    ((matmul_zero_apply plain128 _ _ x3 p q).trans (Finset.sum_congr rfl fun a _ => ?_)) (matmul_zero_apply plain128 _ x1 x5 p q)
  rw [mulf_apply, spread_apply]

/-- Normalised, scaled by g, shifted by be, clipped at zero: at (p, q) a function of row p of the pre-activation. -/
theorem act_apply (T : FVec Ideal S10000x128 .f32) (x6 x7 : FVec Ideal S128 .f32) (p : Fin 10000) (q : Fin 128) :
    maximumf (addf (mulf (mulf (centred T) (broadcastTo S10000x128 (rsqrt (addf (divf (shapeCast S10000x1
        (multiReduction .add [1] S10000 (mulf (centred T) (centred T)) 0x00000000#32 reduces_S10000x128_S10000 (.inl rfl) rfl) shapeCasts_S10000_S10000x1)
        (broadcast S10000x1 (Scalar.ofBits .f32 0x43000000#32))) (broadcast S10000x1 (Scalar.ofBits .f32 0x3727C5AC#32))))
      broadcasts_S10000x1_S10000x128))
        (broadcastTo S10000x128 (shapeCast S1x128 x6 shapeCasts_S128_S1x128) broadcasts_S1x128_S10000x128))
        (broadcastTo S10000x128 (shapeCast S1x128 x7 shapeCasts_S128_S1x128) broadcasts_S1x128_S10000x128))
      (broadcast S10000x128 (Scalar.ofBits (F := Ideal) .f32 0x00000000#32)) (ix2 p q)
      = max (byRsqrt cN eN (fun k => T (ix2 p k)) q * x6 (ix1 q) + x7 (ix1 q)) z := by
  rw [maximumf_apply, addf_apply, rowBias_apply, broadcast_apply, mulf_apply, rowBias_apply, norm_apply]
  rfl

/-- The first region's body at (p, q): the layer of row p. -/
theorem layerBody_apply (x0 : Vec Ideal S10000x128 .f32) (x2 : Vec Ideal S10000x1 .f32) (x3 : Vec Ideal S128x128 .f32) (x4 : Vec Ideal S128 .f32)
    (x1 : Vec Ideal S10000x128 .f32) (x5 : Vec Ideal S128x128 .f32) (x6 x7 : Vec Ideal S128 .f32) (p : Fin 10000) (q : Fin 128) :
    k0_pay1 (F := Ideal) (k0_pay2 x0 x2 x3 x4 x1 x5 x6) x7 (ix2 p q)
      = lnRow (fun a => x0 (ix2 p a) * x2 (ix2 p (0 : Fin 1))) (fun a => x1 (ix2 p a)) x3 x5 (fun j => x4 (ix1 j)) (fun j => x6 (ix1 j))
          (fun j => x7 (ix1 j)) q := by
  unfold k0_pay1 k0_pay2 lnRow
  simp only [shapeCast_self]
  rw [act_apply]
  simp only [pre_apply]

/-- The second region's layer part at (p, q): the layer of row p. -/
theorem layerBody2_apply (x0 : Vec Ideal S10000x128 .f32) (x2 : Vec Ideal S10000x1 .f32) (x3 : Vec Ideal S128x128 .f32) (x4 : Vec Ideal S128 .f32)
    (x1 : Vec Ideal S10000x128 .f32) (x5 : Vec Ideal S128x128 .f32) (x6 x7 : Vec Ideal S128 .f32) (p : Fin 10000) (q : Fin 128) :
    maximumf (addf (k1_pay2 (F := Ideal) x0 x2 x3 x4 x1 x5 x6)
        (broadcastTo S10000x128 (shapeCast S1x128 x7 shapeCasts_S128_S1x128) broadcasts_S1x128_S10000x128))
      (broadcast S10000x128 (Scalar.ofBits (F := Ideal) .f32 0x00000000#32)) (ix2 p q)
      = lnRow (fun a => x0 (ix2 p a) * x2 (ix2 p (0 : Fin 1))) (fun a => x1 (ix2 p a)) x3 x5 (fun j => x4 (ix1 j)) (fun j => x6 (ix1 j))
          (fun j => x7 (ix1 j)) q := by
  unfold k1_pay2 lnRow
  simp only [shapeCast_self]
  rw [act_apply]
  simp only [pre_apply]

/-- The second region's body at (p, c): the head of the layer of row p. -/
theorem headBody_apply (x0 : Vec Ideal S10000x128 .f32) (x2 : Vec Ideal S10000x1 .f32) (x3 : Vec Ideal S128x128 .f32) (x4 : Vec Ideal S128 .f32)
    (x1 : Vec Ideal S10000x128 .f32) (x5 : Vec Ideal S128x128 .f32) (x6 x7 : Vec Ideal S128 .f32)
    (x8 : Vec Ideal S128x64 .f32) (x9 : Vec Ideal S64 .f32) (x10 : Vec Ideal S64x40 .f32) (x11 : Vec Ideal S40 .f32) (p : Fin 10000) (c : Fin 40) :
    k1_pay1 (F := Ideal) (k1_pay2 x0 x2 x3 x4 x1 x5 x6) x7 x8 x9 x10 x11 (ix2 p c)
      = headRow (lnRow (fun a => x0 (ix2 p a) * x2 (ix2 p (0 : Fin 1))) (fun a => x1 (ix2 p a)) x3 x5 (fun j => x4 (ix1 j))
          (fun j => x6 (ix1 j)) (fun j => x7 (ix1 j))) x8 (fun k => x9 (ix1 k)) x10 (fun q => x11 (ix1 q)) c := by
  unfold k1_pay1 headRow
  rw [addf_apply, rowBias_apply]
  refine congrArg (· + x11 (ix1 c)) ((matmul_zero_apply plain40 _ _ x10 p c).trans (Finset.sum_congr rfl fun k _ => ?_))
  rw [maximumf_apply, addf_apply, rowBias_apply, broadcast_apply]
  refine congrArg (fun s => max (s + x9 (ix1 k)) z * x10 (ix2 k c))
    ((matmul_zero_apply plain64 _ _ x8 p k).trans (Finset.sum_congr rfl fun j _ => ?_))
  exact congrArg (· * x8 (ix2 j k)) (layerBody2_apply x0 x2 x3 x4 x1 x5 x6 x7 p j)

end Cert.KernelIdeal.KPay
end
-- ==== Proof.KerReg0.lean ====
import proofs.«104980_j58050777972868_2_alg».proof.Proof.Gen.KernelIdeal.Frame
import proofs.«104980_j58050777972868_2_alg».proof.Proof.KerPay
import Idealize.ShloMosaic.Lib.Pipeline.Value

set_option maxRecDepth 16384

noncomputable section

namespace Cert.KernelIdeal.KReg0

open Cert.KernelIdeal Cert.KernelIdeal.Gen Idealize.ShloMosaic Idealize.ShloMosaic.TcCoe Idealize.ShloMosaic.ValueIdx
open Idealize.SL.Sem Cert.Net Cert.KernelIdeal.KPay
open Idealize.ShloMosaic.Pipeline (Dat Cfg Window)

/-! ## The first region's result array as one function of the arrays it reads

The region walks ten blocks of 10000 rows.  At every point the three row-blocked inputs (neighbour sums, node
features, reciprocal counts) are read at the same row offset as the output block and the five weight arrays whole,
so what point t writes back is the block at t of one function of the whole arrays; the ten output blocks tile the
result. -/

variable (V : (c : Dev nD) → (b : Ref sig .tc) → Buf (Elt Ideal) ((c : Thread nD τ).loc b))

/-- The neighbour sums scaled row by row by a column. -/
def scaled (S : FVec Ideal S100000x128 .f32) (dv : FVec Ideal S100000x1 .f32) : FVec Ideal S100000x128 .f32 :=
  fun i => S i * dv (ix2 (i 0) (0 : Fin 1))

/-- The layer over whole arrays with the mean taken as sums times the reciprocal-count column. -/
def layerOf (S X : FVec Ideal S100000x128 .f32) (dv : FVec Ideal S100000x1 .f32) (Wl : FVec Ideal S128x128 .f32) (bl : FVec Ideal S128 .f32)
    (Wr : FVec Ideal S128x128 .f32) (g be : FVec Ideal S128 .f32) : FVec Ideal S100000x128 .f32 :=
  layerArr (scaled S dv) X Wl Wr bl g be

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-blocked inputs move with the output block, the weights stay put. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0
    ∧ win0_8.index t (1 : Fin 2) = 0 ∧ win0_8.index t (0 : Fin 2) ≤ 9 :=
  (by decide +kernel : ∀ t : Fin grid0.N, _)

/-- Every one of the ten row blocks is some point's. -/
theorem idx_onto : ∀ q0 : Fin 10, ∃ t : Fin cfg0.N, win0_8.index t = ![q0.val, 0] :=
  (by decide +kernel : ∀ q0 : Fin 10, ∃ t : Fin grid0.N, win0_8.index t = ![q0.val, 0])

/-- WHAT POINT t WRITES BACK is block t of the layer of the whole arrays as the region finds them. -/
theorem flushed_eq (c : Dev nD) (t : Fin cfg0.N) :
    (dat0 V c).flushed 8 t = ((cfg0.win 8).blk t).view.read (Elt Ideal)
      (layerOf (V c main_v22) (V c main_arg0) (V c main_v12) (V c main_arg2) (V c main_arg3) (V c main_arg4) (V c main_arg5) (V c main_arg6)) := by
  show (cfg0.win 8).cut (grid0.coords t) ((dat0 V c).after 8 t) = _
  rw [after0_8]
  unfold out0_8
  rw [View.canon_unit_zero hz2]
  simp only [View.ld_unit_zero (S := S10000x128) hz2, View.ld_unit_zero (S := S10000x1) hz2, View.ld_unit_zero (S := S128x128) hz2,
    View.ld_unit_zero (S := S128) hz1]
  obtain ⟨f00, f01, f10, f11, f20, f21, f30, f31, f40, f50, f51, f60, f70, f81, f8⟩ := idx_facts t
  funext j
  obtain ⟨p, q, rfl⟩ : ∃ (p : Fin 10000) (q : Fin 128), j = ix2 p q := ⟨j 0, j 1, eq_ix2 j⟩
  refine (layerBody_apply (iblk0 V c 0 t) (iblk0 V c 2 t) (iblk0 V c 3 t) (iblk0 V c 4 t) (iblk0 V c 1 t) (iblk0 V c 5 t) (iblk0 V c 6 t)
    (iblk0 V c 7 t) p q).trans ?_
  rw [View.read_apply]
  generalize hi : ((View.whole main_v23).slice ((win0 8).rect t)).emb (ix2 p q) = i
  have hi0 : (i 0).val = win0_8.index t (0 : Fin 2) * 10000 + 1 * p.val := by rw [← hi]; rfl
  have hi1 : (i 1).val = win0_8.index t (1 : Fin 2) * 128 + 1 * q.val := by rw [← hi]; rfl
  show _ = lnRow (fun a => scaled (V c main_v22) (V c main_v12) (ix2 (i 0) a)) (fun a => V c main_arg0 (ix2 (i 0) a))
    (V c main_arg2) (V c main_arg4) (fun j => V c main_arg3 (ix1 j)) (fun j => V c main_arg5 (ix1 j)) (fun j => V c main_arg6 (ix1 j)) (i 1)
  have e0 : ∀ a : Fin 128, iblk0 V c 0 t (ix2 p a) = V c main_v22 (ix2 (i 0) a) := fun a => by
    show V c main_v22 (((cfg0.win 0).blk t).view.emb (ix2 p a)) = V c main_v22 (ix2 (i 0) a)
    refine congrArg (V c main_v22) (funext fun ax => Fin.ext ?_)
    match ax with
    | ⟨0, _⟩ => show win0_0.index t (0 : Fin 2) * 10000 + 1 * p.val = (i 0).val; omega
    | ⟨1, _⟩ => show win0_0.index t (1 : Fin 2) * 128 + 1 * a.val = a.val; omega
  have e1 : ∀ a : Fin 128, iblk0 V c 1 t (ix2 p a) = V c main_arg0 (ix2 (i 0) a) := fun a => by
    show V c main_arg0 (((cfg0.win 1).blk t).view.emb (ix2 p a)) = V c main_arg0 (ix2 (i 0) a)
    refine congrArg (V c main_arg0) (funext fun ax => Fin.ext ?_)
    match ax with
    | ⟨0, _⟩ => show win0_1.index t (0 : Fin 2) * 10000 + 1 * p.val = (i 0).val; omega
    | ⟨1, _⟩ => show win0_1.index t (1 : Fin 2) * 128 + 1 * a.val = a.val; omega
  have e2 : iblk0 V c 2 t (ix2 p (0 : Fin 1)) = V c main_v12 (ix2 (i 0) (0 : Fin 1)) := by
    show V c main_v12 (((cfg0.win 2).blk t).view.emb (ix2 p (0 : Fin 1))) = V c main_v12 (ix2 (i 0) (0 : Fin 1))
    refine congrArg (V c main_v12) (funext fun ax => Fin.ext ?_)
    match ax with
    | ⟨0, _⟩ => show win0_2.index t (0 : Fin 2) * 10000 + 1 * p.val = (i 0).val; omega
    | ⟨1, _⟩ => show win0_2.index t (1 : Fin 2) * 1 + 1 * 0 = 0; omega
  have e3 : iblk0 V c 3 t = V c main_arg2 := funext fun y => by
    show V c main_arg2 (((cfg0.win 3).blk t).view.emb y) = V c main_arg2 y
    refine congrArg (V c main_arg2) (funext fun ax => Fin.ext ?_)
    match ax with
    | ⟨0, _⟩ => show win0_3.index t (0 : Fin 2) * 128 + 1 * (y 0).val = (y 0).val; omega
    | ⟨1, _⟩ => show win0_3.index t (1 : Fin 2) * 128 + 1 * (y 1).val = (y 1).val; omega
  have e5 : iblk0 V c 5 t = V c main_arg4 := funext fun y => by
    show V c main_arg4 (((cfg0.win 5).blk t).view.emb y) = V c main_arg4 y
    refine congrArg (V c main_arg4) (funext fun ax => Fin.ext ?_)
    match ax with
    | ⟨0, _⟩ => show win0_5.index t (0 : Fin 2) * 128 + 1 * (y 0).val = (y 0).val; omega
    | ⟨1, _⟩ => show win0_5.index t (1 : Fin 2) * 128 + 1 * (y 1).val = (y 1).val; omega
  have e4 : iblk0 V c 4 t = V c main_arg3 := funext fun y => by
    show V c main_arg3 (((cfg0.win 4).blk t).view.emb y) = V c main_arg3 y
    refine congrArg (V c main_arg3) (funext fun ax => Fin.ext ?_)
    match ax with
    | ⟨0, _⟩ => show win0_4.index t (0 : Fin 1) * 128 + 1 * (y 0).val = (y 0).val; omega
  have e6 : iblk0 V c 6 t = V c main_arg5 := funext fun y => by
    show V c main_arg5 (((cfg0.win 6).blk t).view.emb y) = V c main_arg5 y
    refine congrArg (V c main_arg5) (funext fun ax => Fin.ext ?_)
    match ax with
    | ⟨0, _⟩ => show win0_6.index t (0 : Fin 1) * 128 + 1 * (y 0).val = (y 0).val; omega
  have e7 : iblk0 V c 7 t = V c main_arg6 := funext fun y => by
    show V c main_arg6 (((cfg0.win 7).blk t).view.emb y) = V c main_arg6 y
    refine congrArg (V c main_arg6) (funext fun ax => Fin.ext ?_)
    match ax with
    | ⟨0, _⟩ => show win0_7.index t (0 : Fin 1) * 128 + 1 * (y 0).val = (y 0).val; omega
  have eq : q = i 1 := Fin.ext (by omega)
  rw [e3, e5, e4, e6, e7, funext e1, eq]
  exact congrArg (fun f => lnRow f _ _ _ _ _ _ _)
    (funext fun a => congrArg₂ (fun (x y : EReal) => x * y) (e0 a) e2)

/-- An index of the result array is in point t's block iff each coordinate is in the block's range on its axis. -/
theorem mem_blk (t : Fin cfg0.N) (i : S100000x128.Idx) :
    i ∈ ((cfg0.win 8).blk t).view.set ↔ ∀ a : Fin 2, win0_8.index t a * S10000x128.size a ≤ (i a).val
      ∧ (i a).val < win0_8.index t a * S10000x128.size a + S10000x128.size a := by
  show i ∈ ((View.whole main_v23).slice (win0_8.rect t)).set ↔ _
  rw [View.set_slice_whole, Rect.mem_set_unit]
  exact Iff.rfl

/-- Every index of the result array is in some point's block: row r is in block r / 10000. -/
theorem cover (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto ⟨(i 0).val / 10000, by omega⟩
  have q0 : win0_8.index t (0 : Fin 2) = (i 0).val / 10000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 10000 ≤ (i 0).val ∧ (i 0).val < win0_8.index t (0 : Fin 2) * 10000 + 10000; omega
  | ⟨1, _⟩ => show win0_8.index t (1 : Fin 2) * 128 ≤ (i 1).val ∧ (i 1).val < win0_8.index t (1 : Fin 2) * 128 + 128; omega

/-- THE RESULT ARRAY after the region: the layer of the whole arrays as the region finds them. -/
theorem final (c : Dev nD) : (dat0 V c).arrAt 8 cfg0.N
    = layerOf (V c main_v22) (V c main_arg0) (V c main_v12) (V c main_arg2) (V c main_arg3) (V c main_arg4) (V c main_arg5) (V c main_arg6) :=
  (dat0 V c).arrAt_eq_of_cover 8 _ (fun t _ => flushed_eq V c t) cover

end Cert.KernelIdeal.KReg0
end
-- ==== Proof.KerReg1.lean ====
import proofs.«104980_j58050777972868_2_alg».proof.Proof.Gen.KernelIdeal.Frame
import proofs.«104980_j58050777972868_2_alg».proof.Proof.KerPay
import proofs.«104980_j58050777972868_2_alg».proof.Proof.KerReg0
import Idealize.ShloMosaic.Lib.Pipeline.Value

set_option maxRecDepth 16384

noncomputable section

namespace Cert.KernelIdeal.KReg1

open Cert.KernelIdeal Cert.KernelIdeal.Gen Idealize.ShloMosaic Idealize.ShloMosaic.TcCoe Idealize.ShloMosaic.ValueIdx
open Idealize.SL.Sem Cert.Net Cert.KernelIdeal.KPay Cert.KernelIdeal.KReg0
open Idealize.ShloMosaic.Pipeline (Dat Cfg Window)

/-! ## The second region's result array as one function of the arrays it reads

Again ten blocks of 10000 rows: the aggregate of the first layer's result, that result itself and the reciprocal
counts are read at the output block's row offset, the nine weight arrays whole; point t writes back block t of the
head of the layer of the whole arrays, and the ten [10000, 40] output blocks tile the result. -/

variable (V : (c : Dev nD) → (b : Ref sig .tc) → Buf (Elt Ideal) ((c : Thread nD τ).loc b))

/-- The second layer followed by the head, over whole arrays. -/
def headOf (S X : FVec Ideal S100000x128 .f32) (dv : FVec Ideal S100000x1 .f32) (Wl : FVec Ideal S128x128 .f32) (bl : FVec Ideal S128 .f32)
    (Wr : FVec Ideal S128x128 .f32) (g be : FVec Ideal S128 .f32) (Wc1 : FVec Ideal S128x64 .f32) (bc1 : FVec Ideal S64 .f32)
    (Wc2 : FVec Ideal S64x40 .f32) (bc2 : FVec Ideal S40 .f32) : FVec Ideal S100000x40 .f32 :=
  headArr (layerOf S X dv Wl bl Wr g be) Wc1 bc1 Wc2 bc2

/-- The printed index maps over the grid: the row-blocked inputs move with the output block, the weights stay put. -/
theorem idx_facts : ∀ t : Fin cfg1.N,
    win1_0.index t (0 : Fin 2) = win1_12.index t (0 : Fin 2) ∧ win1_0.index t (1 : Fin 2) = 0
    ∧ win1_1.index t (0 : Fin 2) = win1_12.index t (0 : Fin 2) ∧ win1_1.index t (1 : Fin 2) = 0
    ∧ win1_2.index t (0 : Fin 2) = win1_12.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = 0
    ∧ win1_11.index t (0 : Fin 1) = 0
    ∧ win1_12.index t (1 : Fin 2) = 0 ∧ win1_12.index t (0 : Fin 2) ≤ 9 :=
  (by decide +kernel : ∀ t : Fin grid1.N, _)

/-- Every one of the ten row blocks is some point's. -/
theorem idx_onto : ∀ q0 : Fin 10, ∃ t : Fin cfg1.N, win1_12.index t = ![q0.val, 0] :=
  (by decide +kernel : ∀ q0 : Fin 10, ∃ t : Fin grid1.N, win1_12.index t = ![q0.val, 0])

set_option maxHeartbeats 2000000 in
/-- WHAT POINT t WRITES BACK is block t of the head of the layer of the whole arrays as the region finds them. -/
theorem flushed_eq (c : Dev nD) (t : Fin cfg1.N) :
    (dat1 V c).flushed 12 t = ((cfg1.win 12).blk t).view.read (Elt Ideal)
      (headOf (V c main_v33) (V c main_v23) (V c main_v12) (V c main_arg7) (V c main_arg8) (V c main_arg9) (V c main_arg10) (V c main_arg11)
        (V c main_arg12) (V c main_arg13) (V c main_arg14) (V c main_arg15)) := by
  show (cfg1.win 12).cut (grid1.coords t) ((dat1 V c).after 12 t) = _
  rw [after1_12]
  unfold out1_12
  rw [View.canon_unit_zero hz2]
  simp only [View.ld_unit_zero (S := S10000x128) hz2, View.ld_unit_zero (S := S10000x1) hz2, View.ld_unit_zero (S := S128x128) hz2,
    View.ld_unit_zero (S := S128) hz1, View.ld_unit_zero (S := S128x64) hz2, View.ld_unit_zero (S := S64) hz1,
    View.ld_unit_zero (S := S64x40) hz2, View.ld_unit_zero (S := S40) hz1]
  obtain ⟨f00, f01, f10, f11, f20, f21, f30, f31, f40, f50, f51, f60, f70, f80, f81, f90, fa0, fa1, fb0, fc1, fc⟩ := idx_facts t
  funext j
  obtain ⟨p, q, rfl⟩ : ∃ (p : Fin 10000) (q : Fin 40), j = ix2 p q := ⟨j 0, j 1, eq_ix2 j⟩
  refine (headBody_apply (iblk1 V c 0 t) (iblk1 V c 2 t) (iblk1 V c 3 t) (iblk1 V c 4 t) (iblk1 V c 1 t) (iblk1 V c 5 t) (iblk1 V c 6 t)
    (iblk1 V c 7 t) (iblk1 V c 8 t) (iblk1 V c 9 t) (iblk1 V c 10 t) (iblk1 V c 11 t) p q).trans ?_
  rw [View.read_apply]
  generalize hi : ((View.whole main_v34).slice ((win1 12).rect t)).emb (ix2 p q) = i
  have hi0 : (i 0).val = win1_12.index t (0 : Fin 2) * 10000 + 1 * p.val := by rw [← hi]; rfl
  have hi1 : (i 1).val = win1_12.index t (1 : Fin 2) * 40 + 1 * q.val := by rw [← hi]; rfl
  show _ = headRow (lnRow (fun a => scaled (V c main_v33) (V c main_v12) (ix2 (i 0) a)) (fun a => V c main_v23 (ix2 (i 0) a))
    (V c main_arg7) (V c main_arg9) (fun j => V c main_arg8 (ix1 j)) (fun j => V c main_arg10 (ix1 j)) (fun j => V c main_arg11 (ix1 j)))
    (V c main_arg12) (fun k => V c main_arg13 (ix1 k)) (V c main_arg14) (fun k => V c main_arg15 (ix1 k)) (i 1)
  have e0 : ∀ a : Fin 128, iblk1 V c 0 t (ix2 p a) = V c main_v33 (ix2 (i 0) a) := fun a => by
    show V c main_v33 (((cfg1.win 0).blk t).view.emb (ix2 p a)) = V c main_v33 (ix2 (i 0) a)
    refine congrArg (V c main_v33) (funext fun ax => Fin.ext ?_)
    match ax with
    | ⟨0, _⟩ => show win1_0.index t (0 : Fin 2) * 10000 + 1 * p.val = (i 0).val; omega
    | ⟨1, _⟩ => show win1_0.index t (1 : Fin 2) * 128 + 1 * a.val = a.val; omega
  have e1 : ∀ a : Fin 128, iblk1 V c 1 t (ix2 p a) = V c main_v23 (ix2 (i 0) a) := fun a => by
    show V c main_v23 (((cfg1.win 1).blk t).view.emb (ix2 p a)) = V c main_v23 (ix2 (i 0) a)
    refine congrArg (V c main_v23) (funext fun ax => Fin.ext ?_)
    match ax with
    | ⟨0, _⟩ => show win1_1.index t (0 : Fin 2) * 10000 + 1 * p.val = (i 0).val; omega
    | ⟨1, _⟩ => show win1_1.index t (1 : Fin 2) * 128 + 1 * a.val = a.val; omega
  have e2 : iblk1 V c 2 t (ix2 p (0 : Fin 1)) = V c main_v12 (ix2 (i 0) (0 : Fin 1)) := by
    show V c main_v12 (((cfg1.win 2).blk t).view.emb (ix2 p (0 : Fin 1))) = V c main_v12 (ix2 (i 0) (0 : Fin 1))
    refine congrArg (V c main_v12) (funext fun ax => Fin.ext ?_)
    match ax with
    | ⟨0, _⟩ => show win1_2.index t (0 : Fin 2) * 10000 + 1 * p.val = (i 0).val; omega
    | ⟨1, _⟩ => show win1_2.index t (1 : Fin 2) * 1 + 1 * 0 = 0; omega
  have e3 : iblk1 V c 3 t = V c main_arg7 := funext fun y => by
    show V c main_arg7 (((cfg1.win 3).blk t).view.emb y) = V c main_arg7 y
    refine congrArg (V c main_arg7) (funext fun ax => Fin.ext ?_)
    match ax with
    | ⟨0, _⟩ => show win1_3.index t (0 : Fin 2) * 128 + 1 * (y 0).val = (y 0).val; omega
    | ⟨1, _⟩ => show win1_3.index t (1 : Fin 2) * 128 + 1 * (y 1).val = (y 1).val; omega
  have e4 : iblk1 V c 4 t = V c main_arg8 := funext fun y => by
    show V c main_arg8 (((cfg1.win 4).blk t).view.emb y) = V c main_arg8 y
    refine congrArg (V c main_arg8) (funext fun ax => Fin.ext ?_)
    match ax with
    | ⟨0, _⟩ => show win1_4.index t (0 : Fin 1) * 128 + 1 * (y 0).val = (y 0).val; omega
  have e5 : iblk1 V c 5 t = V c main_arg9 := funext fun y => by
    show V c main_arg9 (((cfg1.win 5).blk t).view.emb y) = V c main_arg9 y
    refine congrArg (V c main_arg9) (funext fun ax => Fin.ext ?_)
    match ax with
    | ⟨0, _⟩ => show win1_5.index t (0 : Fin 2) * 128 + 1 * (y 0).val = (y 0).val; omega
    | ⟨1, _⟩ => show win1_5.index t (1 : Fin 2) * 128 + 1 * (y 1).val = (y 1).val; omega
  have e6 : iblk1 V c 6 t = V c main_arg10 := funext fun y => by
    show V c main_arg10 (((cfg1.win 6).blk t).view.emb y) = V c main_arg10 y
    refine congrArg (V c main_arg10) (funext fun ax => Fin.ext ?_)
    match ax with
    | ⟨0, _⟩ => show win1_6.index t (0 : Fin 1) * 128 + 1 * (y 0).val = (y 0).val; omega
  have e7 : iblk1 V c 7 t = V c main_arg11 := funext fun y => by
    show V c main_arg11 (((cfg1.win 7).blk t).view.emb y) = V c main_arg11 y
    refine congrArg (V c main_arg11) (funext fun ax => Fin.ext ?_)
    match ax with
    | ⟨0, _⟩ => show win1_7.index t (0 : Fin 1) * 128 + 1 * (y 0).val = (y 0).val; omega
  have e8 : iblk1 V c 8 t = V c main_arg12 := funext fun y => by
    show V c main_arg12 (((cfg1.win 8).blk t).view.emb y) = V c main_arg12 y
    refine congrArg (V c main_arg12) (funext fun ax => Fin.ext ?_)
    match ax with
    | ⟨0, _⟩ => show win1_8.index t (0 : Fin 2) * 128 + 1 * (y 0).val = (y 0).val; omega
    | ⟨1, _⟩ => show win1_8.index t (1 : Fin 2) * 64 + 1 * (y 1).val = (y 1).val; omega
  have e9 : iblk1 V c 9 t = V c main_arg13 := funext fun y => by
    show V c main_arg13 (((cfg1.win 9).blk t).view.emb y) = V c main_arg13 y
    refine congrArg (V c main_arg13) (funext fun ax => Fin.ext ?_)
    match ax with
    | ⟨0, _⟩ => show win1_9.index t (0 : Fin 1) * 64 + 1 * (y 0).val = (y 0).val; omega
  have e10 : iblk1 V c 10 t = V c main_arg14 := funext fun y => by
    show V c main_arg14 (((cfg1.win 10).blk t).view.emb y) = V c main_arg14 y
    refine congrArg (V c main_arg14) (funext fun ax => Fin.ext ?_)
    match ax with
    | ⟨0, _⟩ => show win1_10.index t (0 : Fin 2) * 64 + 1 * (y 0).val = (y 0).val; omega
    | ⟨1, _⟩ => show win1_10.index t (1 : Fin 2) * 40 + 1 * (y 1).val = (y 1).val; omega
  have e11 : iblk1 V c 11 t = V c main_arg15 := funext fun y => by
    show V c main_arg15 (((cfg1.win 11).blk t).view.emb y) = V c main_arg15 y
    refine congrArg (V c main_arg15) (funext fun ax => Fin.ext ?_)
    match ax with
    | ⟨0, _⟩ => show win1_11.index t (0 : Fin 1) * 40 + 1 * (y 0).val = (y 0).val; omega
  have eq : q = i 1 := Fin.ext (by omega)
  rw [e3, e4, e5, e6, e7, e8, e9, e10, e11, funext e1, eq]
  exact congrArg (fun f => headRow (lnRow f _ _ _ _ _ _) _ _ _ _ _)
    (funext fun a => congrArg₂ (fun (x y : EReal) => x * y) (e0 a) e2)

/-- An index of the result array is in point t's block iff each coordinate is in the block's range on its axis. -/
theorem mem_blk (t : Fin cfg1.N) (i : S100000x40.Idx) :
    i ∈ ((cfg1.win 12).blk t).view.set ↔ ∀ a : Fin 2, win1_12.index t a * S10000x40.size a ≤ (i a).val
      ∧ (i a).val < win1_12.index t a * S10000x40.size a + S10000x40.size a := by
  show i ∈ ((View.whole main_v34).slice (win1_12.rect t)).set ↔ _
  rw [View.set_slice_whole, Rect.mem_set_unit]
  exact Iff.rfl

/-- Every index of the result array is in some point's block: row r is in block r / 10000. -/
theorem cover (i : S100000x40.Idx) : ∃ t : Fin cfg1.N, (cfg1.win 12).flush t = true ∧ i ∈ ((cfg1.win 12).blk t).view.set := by
  have hi0 : (i 0).val < 100000 := (i 0).isLt
  have hi1 : (i 1).val < 40 := (i 1).isLt
  obtain ⟨t, ht⟩ := idx_onto ⟨(i 0).val / 10000, by omega⟩
  have q0 : win1_12.index t (0 : Fin 2) = (i 0).val / 10000 := congrFun ht 0
  have q1 : win1_12.index t (1 : Fin 2) = 0 := congrFun ht 1
  refine ⟨t, flush1_12 t, ?_⟩
  rw [mem_blk]
  intro a
  match a with
  | ⟨0, _⟩ => show win1_12.index t (0 : Fin 2) * 10000 ≤ (i 0).val ∧ (i 0).val < win1_12.index t (0 : Fin 2) * 10000 + 10000; omega
  | ⟨1, _⟩ => show win1_12.index t (1 : Fin 2) * 40 ≤ (i 1).val ∧ (i 1).val < win1_12.index t (1 : Fin 2) * 40 + 40; omega

/-- THE RESULT ARRAY after the region: the head of the layer of the whole arrays as the region finds them. -/
theorem final (c : Dev nD) : (dat1 V c).arrAt 12 cfg1.N
    = headOf (V c main_v33) (V c main_v23) (V c main_v12) (V c main_arg7) (V c main_arg8) (V c main_arg9) (V c main_arg10) (V c main_arg11)
        (V c main_arg12) (V c main_arg13) (V c main_arg14) (V c main_arg15) :=
  (dat1 V c).arrAt_eq_of_cover 12 _ (fun t _ => flushed_eq V c t) cover

end Cert.KernelIdeal.KReg1
end
-- ==== Proof.KerRun.lean ====
import proofs.«104980_j58050777972868_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result named: every weakly fair execution terminates, nothing faulting, with the
    result buffer at the contents the segments' fold leaves there (host stretch, first region, host stretch, second
    region, from the launch memory) and the argument arrays as launched. -/
theorem run_value : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.KRun
end
-- ==== Proof.KerFold.lean ====
import Idealize.ShloMosaic.PureOps.Ideal
import proofs.«104980_j58050777972868_2_alg».proof.Proof.Gen.KernelIdeal.Frame
import proofs.«104980_j58050777972868_2_alg».proof.Proof.LibLineEval
import proofs.«104980_j58050777972868_2_alg».proof.Proof.KerReg0
import proofs.«104980_j58050777972868_2_alg».proof.Proof.KerReg1
import proofs.«104980_j58050777972868_2_alg».proof.Proof.KerRun

set_option maxRecDepth 16384

noncomputable section

namespace Cert.KernelIdeal.KFold

open Cert.KernelIdeal Cert.KernelIdeal.Gen Idealize.ShloMosaic Idealize.ShloMosaic.TcCoe Idealize.ShloMosaic.StableHlo
open Idealize.SL.Sem Cert.LineEval Cert.Net Cert.KernelIdeal.KReg0 Cert.KernelIdeal.KReg1
open Idealize.ShloMosaic.Pipeline (Dat)

/-! ## The program's fold: host stretch, region, host stretch, region

The host side splits the edge list into its source and destination rows, counts each node's in-edges and takes the
reciprocal of the count clamped below at one, and before each region gathers the rows of a feature array at the
(wrapped) sources and adds them up at the destinations.  These operations are carried as named functions and never
opened: the reference applies the same ones. -/

/-- The sources of the edges: row 0 of the edge list. -/
def srcOf (ei : (⟨S2x625000, .i32⟩ : BufTy).Contents (Elt Ideal)) : (⟨S625000, .i32⟩ : BufTy).Contents (Elt Ideal) :=
  fun i => shapeCast S625000 (extractStridedSlice S1x625000 ![0, 0] ei slices_S2x625000_S1x625000_0_0) shapeCasts_S1x625000_S625000 i

/-- The destinations of the edges: row 1 of the edge list. -/
def dstOf (ei : (⟨S2x625000, .i32⟩ : BufTy).Contents (Elt Ideal)) : (⟨S625000, .i32⟩ : BufTy).Contents (Elt Ideal) :=
  fun i => shapeCast S625000 (extractStridedSlice S1x625000 ![1, 0] ei slices_S2x625000_S1x625000_1_0) shapeCasts_S1x625000_S625000 i

/-- Neighbour aggregation: the rows of `X` at the sources (a negative source wrapped once), summed at the destinations. -/
def aggOf (s d : (⟨S625000, .i32⟩ : BufTy).Contents (Elt Ideal)) (X : FVec Ideal S100000x128 .f32) : FVec Ideal S100000x128 .f32 :=
  Host.scatterAdd scatter_S100000x128_S625000x1_S625000x128_1_0_0_1
    (broadcastInDim S100000x128 ![] bcast_S_S100000x128 (constant S_ .f32 0x00000000#32))
    (broadcastInDim S625000x1 ![0] bcast_S625000_S625000x1_0 d)
    (Host.gather gather_S100000x128_S625000x1_S625000x128_1_0_n_n_0_1_1128 X
      (broadcastInDim S625000x1 ![0] bcast_S625000_S625000x1_0
        (select (cmpi .slt s (broadcastInDim S625000 ![] bcast_S_S625000 (constantI S_ 32 0#32)))
          (addi s (broadcastInDim S625000 ![] bcast_S_S625000 (constantI S_ 32 100000#32))) s)))

/-- The in-edge count of every node, clamped below at one. -/
def countOf (d : (⟨S625000, .i32⟩ : BufTy).Contents (Elt Ideal)) : FVec Ideal S100000 .f32 :=
  maximumf (Host.scatterAdd scatter_S100000_S625000x1_S625000_n_0_0_1
      (broadcastInDim S100000 ![] bcast_S_S100000 (constant S_ .f32 0x00000000#32))
      (broadcastInDim S625000x1 ![0] bcast_S625000_S625000x1_0 d)
      (broadcastInDim S625000 ![] bcast_S_S625000 (constant S_ .f32 0x3F800000#32)))
    (broadcastInDim S100000 ![] bcast_S_S100000 (constant S_ .f32 0x3F800000#32))

/-- The reciprocal of the clamped count, as a column. -/
def recipOf (d : (⟨S625000, .i32⟩ : BufTy).Contents (Elt Ideal)) : FVec Ideal S100000x1 .f32 :=
  broadcastInDim S100000x1 ![0] bcast_S100000_S100000x1_0
    (Host.divf (broadcastInDim S100000 ![] bcast_S_S100000 (constant S_ .f32 0x3F800000#32)) (countOf d))

variable (m : (ℓ : Loc nD τ sig) → Buf (Elt Ideal) ℓ) (ρ : Dev nD → PrngReg)

/-! ### The first region's entry: the first host stretch over the launch memory -/

theorem V1_v22 (c : Dev nD) : V1 m ρ c main_v22 = aggOf (srcOf (m ((c.tc : Thread nD τ).loc main_arg1))) (dstOf (m ((c.tc : Thread nD τ).loc main_arg1))) (m ((c.tc : Thread nD τ).loc main_arg0)) := by
  show StableHlo.after hostOps0 (W0 m ρ c) (Proc.devRef .tc main_v22) = _
  eval_line
  rfl
theorem V1_v12 (c : Dev nD) : V1 m ρ c main_v12 = recipOf (dstOf (m ((c.tc : Thread nD τ).loc main_arg1))) := by
  show StableHlo.after hostOps0 (W0 m ρ c) (Proc.devRef .tc main_v12) = _
  eval_line
  rfl
theorem V1_v1 (c : Dev nD) : V1 m ρ c main_v1 = srcOf (m ((c.tc : Thread nD τ).loc main_arg1)) := by
  show StableHlo.after hostOps0 (W0 m ρ c) (Proc.devRef .tc main_v1) = _
  eval_line
  rfl
theorem V1_v3 (c : Dev nD) : V1 m ρ c main_v3 = dstOf (m ((c.tc : Thread nD τ).loc main_arg1)) := by
  show StableHlo.after hostOps0 (W0 m ρ c) (Proc.devRef .tc main_v3) = _
  eval_line
  rfl
theorem V1_arg0 (c : Dev nD) : V1 m ρ c main_arg0 = (m ((c.tc : Thread nD τ).loc main_arg0)) := by
  show StableHlo.after hostOps0 (W0 m ρ c) (Proc.devRef .tc main_arg0) = _
  eval_line
theorem V1_arg2 (c : Dev nD) : V1 m ρ c main_arg2 = (m ((c.tc : Thread nD τ).loc main_arg2)) := by
  show StableHlo.after hostOps0 (W0 m ρ c) (Proc.devRef .tc main_arg2) = _
  eval_line
theorem V1_arg3 (c : Dev nD) : V1 m ρ c main_arg3 = (m ((c.tc : Thread nD τ).loc main_arg3)) := by
  show StableHlo.after hostOps0 (W0 m ρ c) (Proc.devRef .tc main_arg3) = _
  eval_line
theorem V1_arg4 (c : Dev nD) : V1 m ρ c main_arg4 = (m ((c.tc : Thread nD τ).loc main_arg4)) := by
  show StableHlo.after hostOps0 (W0 m ρ c) (Proc.devRef .tc main_arg4) = _
  eval_line
theorem V1_arg5 (c : Dev nD) : V1 m ρ c main_arg5 = (m ((c.tc : Thread nD τ).loc main_arg5)) := by
  show StableHlo.after hostOps0 (W0 m ρ c) (Proc.devRef .tc main_arg5) = _
  eval_line
theorem V1_arg6 (c : Dev nD) : V1 m ρ c main_arg6 = (m ((c.tc : Thread nD τ).loc main_arg6)) := by
  show StableHlo.after hostOps0 (W0 m ρ c) (Proc.devRef .tc main_arg6) = _
  eval_line
theorem V1_arg7 (c : Dev nD) : V1 m ρ c main_arg7 = (m ((c.tc : Thread nD τ).loc main_arg7)) := by
  show StableHlo.after hostOps0 (W0 m ρ c) (Proc.devRef .tc main_arg7) = _
  eval_line
theorem V1_arg8 (c : Dev nD) : V1 m ρ c main_arg8 = (m ((c.tc : Thread nD τ).loc main_arg8)) := by
  show StableHlo.after hostOps0 (W0 m ρ c) (Proc.devRef .tc main_arg8) = _
  eval_line
theorem V1_arg9 (c : Dev nD) : V1 m ρ c main_arg9 = (m ((c.tc : Thread nD τ).loc main_arg9)) := by
  show StableHlo.after hostOps0 (W0 m ρ c) (Proc.devRef .tc main_arg9) = _
  eval_line
theorem V1_arg10 (c : Dev nD) : V1 m ρ c main_arg10 = (m ((c.tc : Thread nD τ).loc main_arg10)) := by
  show StableHlo.after hostOps0 (W0 m ρ c) (Proc.devRef .tc main_arg10) = _
  eval_line
theorem V1_arg11 (c : Dev nD) : V1 m ρ c main_arg11 = (m ((c.tc : Thread nD τ).loc main_arg11)) := by
  show StableHlo.after hostOps0 (W0 m ρ c) (Proc.devRef .tc main_arg11) = _
  eval_line
theorem V1_arg12 (c : Dev nD) : V1 m ρ c main_arg12 = (m ((c.tc : Thread nD τ).loc main_arg12)) := by
  show StableHlo.after hostOps0 (W0 m ρ c) (Proc.devRef .tc main_arg12) = _
  eval_line
theorem V1_arg13 (c : Dev nD) : V1 m ρ c main_arg13 = (m ((c.tc : Thread nD τ).loc main_arg13)) := by
  show StableHlo.after hostOps0 (W0 m ρ c) (Proc.devRef .tc main_arg13) = _
  eval_line
theorem V1_arg14 (c : Dev nD) : V1 m ρ c main_arg14 = (m ((c.tc : Thread nD τ).loc main_arg14)) := by
  show StableHlo.after hostOps0 (W0 m ρ c) (Proc.devRef .tc main_arg14) = _
  eval_line
theorem V1_arg15 (c : Dev nD) : V1 m ρ c main_arg15 = (m ((c.tc : Thread nD τ).loc main_arg15)) := by
  show StableHlo.after hostOps0 (W0 m ρ c) (Proc.devRef .tc main_arg15) = _
  eval_line

/-! ### The first region's exit -/

theorem W2_v23 (c : Dev nD) : V2 m ρ c main_v23
    = layerOf (aggOf (srcOf (m ((c.tc : Thread nD τ).loc main_arg1))) (dstOf (m ((c.tc : Thread nD τ).loc main_arg1))) (m ((c.tc : Thread nD τ).loc main_arg0))) (m ((c.tc : Thread nD τ).loc main_arg0)) (recipOf (dstOf (m ((c.tc : Thread nD τ).loc main_arg1)))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine ((W2_arr m ρ c 8).trans (KReg0.final (V1 m ρ) c)).trans ?_
  rw [V1_v22, V1_v12, V1_arg0, V1_arg2, V1_arg3, V1_arg4, V1_arg5, V1_arg6]
theorem W2_v12 (c : Dev nD) : V2 m ρ c main_v12 = recipOf (dstOf (m ((c.tc : Thread nD τ).loc main_arg1))) :=
  ((W2_arr m ρ c 2).trans (((dat0 (V1 m ρ) c).arrAt_in 2 rfl _).trans (A_eq0 (V1 m ρ) c 2))).trans (V1_v12 m ρ c)
theorem W2_v1 (c : Dev nD) : V2 m ρ c main_v1 = srcOf (m ((c.tc : Thread nD τ).loc main_arg1)) := (W2_of_ne m ρ c main_v1 (by decide)).trans (V1_v1 m ρ c)
theorem W2_v3 (c : Dev nD) : V2 m ρ c main_v3 = dstOf (m ((c.tc : Thread nD τ).loc main_arg1)) := (W2_of_ne m ρ c main_v3 (by decide)).trans (V1_v3 m ρ c)
theorem W2_arg7 (c : Dev nD) : V2 m ρ c main_arg7 = (m ((c.tc : Thread nD τ).loc main_arg7)) := (W2_of_ne m ρ c main_arg7 (by decide)).trans (V1_arg7 m ρ c)
theorem W2_arg8 (c : Dev nD) : V2 m ρ c main_arg8 = (m ((c.tc : Thread nD τ).loc main_arg8)) := (W2_of_ne m ρ c main_arg8 (by decide)).trans (V1_arg8 m ρ c)
theorem W2_arg9 (c : Dev nD) : V2 m ρ c main_arg9 = (m ((c.tc : Thread nD τ).loc main_arg9)) := (W2_of_ne m ρ c main_arg9 (by decide)).trans (V1_arg9 m ρ c)
theorem W2_arg10 (c : Dev nD) : V2 m ρ c main_arg10 = (m ((c.tc : Thread nD τ).loc main_arg10)) := (W2_of_ne m ρ c main_arg10 (by decide)).trans (V1_arg10 m ρ c)
theorem W2_arg11 (c : Dev nD) : V2 m ρ c main_arg11 = (m ((c.tc : Thread nD τ).loc main_arg11)) := (W2_of_ne m ρ c main_arg11 (by decide)).trans (V1_arg11 m ρ c)
theorem W2_arg12 (c : Dev nD) : V2 m ρ c main_arg12 = (m ((c.tc : Thread nD τ).loc main_arg12)) := (W2_of_ne m ρ c main_arg12 (by decide)).trans (V1_arg12 m ρ c)
theorem W2_arg13 (c : Dev nD) : V2 m ρ c main_arg13 = (m ((c.tc : Thread nD τ).loc main_arg13)) := (W2_of_ne m ρ c main_arg13 (by decide)).trans (V1_arg13 m ρ c)
theorem W2_arg14 (c : Dev nD) : V2 m ρ c main_arg14 = (m ((c.tc : Thread nD τ).loc main_arg14)) := (W2_of_ne m ρ c main_arg14 (by decide)).trans (V1_arg14 m ρ c)
theorem W2_arg15 (c : Dev nD) : V2 m ρ c main_arg15 = (m ((c.tc : Thread nD τ).loc main_arg15)) := (W2_of_ne m ρ c main_arg15 (by decide)).trans (V1_arg15 m ρ c)

/-! ### The second region's entry: the second host stretch over the first region's exit -/

theorem V3_v33 (c : Dev nD) : V3 m ρ c main_v33 = aggOf (V2 m ρ c main_v1) (V2 m ρ c main_v3) (V2 m ρ c main_v23) := by
  show StableHlo.after hostOps1 (W2 m ρ c) (Proc.devRef .tc main_v33) = _
  eval_line
  rfl
theorem V3_v23 (c : Dev nD) : V3 m ρ c main_v23 = V2 m ρ c main_v23 := by
  show StableHlo.after hostOps1 (W2 m ρ c) (Proc.devRef .tc main_v23) = _
  eval_line
theorem V3_v12 (c : Dev nD) : V3 m ρ c main_v12 = V2 m ρ c main_v12 := by
  show StableHlo.after hostOps1 (W2 m ρ c) (Proc.devRef .tc main_v12) = _
  eval_line
theorem V3_arg7 (c : Dev nD) : V3 m ρ c main_arg7 = V2 m ρ c main_arg7 := by
  show StableHlo.after hostOps1 (W2 m ρ c) (Proc.devRef .tc main_arg7) = _
  eval_line
theorem V3_arg8 (c : Dev nD) : V3 m ρ c main_arg8 = V2 m ρ c main_arg8 := by
  show StableHlo.after hostOps1 (W2 m ρ c) (Proc.devRef .tc main_arg8) = _
  eval_line
theorem V3_arg9 (c : Dev nD) : V3 m ρ c main_arg9 = V2 m ρ c main_arg9 := by
  show StableHlo.after hostOps1 (W2 m ρ c) (Proc.devRef .tc main_arg9) = _
  eval_line
theorem V3_arg10 (c : Dev nD) : V3 m ρ c main_arg10 = V2 m ρ c main_arg10 := by
  show StableHlo.after hostOps1 (W2 m ρ c) (Proc.devRef .tc main_arg10) = _
  eval_line
theorem V3_arg11 (c : Dev nD) : V3 m ρ c main_arg11 = V2 m ρ c main_arg11 := by
  show StableHlo.after hostOps1 (W2 m ρ c) (Proc.devRef .tc main_arg11) = _
  eval_line
theorem V3_arg12 (c : Dev nD) : V3 m ρ c main_arg12 = V2 m ρ c main_arg12 := by
  show StableHlo.after hostOps1 (W2 m ρ c) (Proc.devRef .tc main_arg12) = _
  eval_line
theorem V3_arg13 (c : Dev nD) : V3 m ρ c main_arg13 = V2 m ρ c main_arg13 := by
  show StableHlo.after hostOps1 (W2 m ρ c) (Proc.devRef .tc main_arg13) = _
  eval_line
theorem V3_arg14 (c : Dev nD) : V3 m ρ c main_arg14 = V2 m ρ c main_arg14 := by
  show StableHlo.after hostOps1 (W2 m ρ c) (Proc.devRef .tc main_arg14) = _
  eval_line
theorem V3_arg15 (c : Dev nD) : V3 m ρ c main_arg15 = V2 m ρ c main_arg15 := by
  show StableHlo.after hostOps1 (W2 m ρ c) (Proc.devRef .tc main_arg15) = _
  eval_line

/-! ### The result -/

/-- The result buffer at the program's end is the network of the launch arrays, with the mean taken as the
    aggregate times the reciprocal clamped count. -/
theorem result_eq (c : Dev nD) : W4 m ρ c (Proc.devRef .tc main_v34)
    = net (fun S => scaled S (recipOf (dstOf (m ((c.tc : Thread nD τ).loc main_arg1))))) (aggOf (srcOf (m ((c.tc : Thread nD τ).loc main_arg1))) (dstOf (m ((c.tc : Thread nD τ).loc main_arg1))))
        (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine ((W4_arr m ρ c 12).trans (KReg1.final (V3 m ρ) c)).trans ?_
  rw [V3_v33, V3_v23, V3_v12, V3_arg7, V3_arg8, V3_arg9, V3_arg10, V3_arg11, V3_arg12, V3_arg13, V3_arg14, V3_arg15,
    W2_v1, W2_v3, W2_v23, W2_v12, W2_arg7, W2_arg8, W2_arg9, W2_arg10, W2_arg11, W2_arg12, W2_arg13, W2_arg14, W2_arg15]
  rfl

/-- Every weakly fair execution of the program terminates with the result at that network of the launch arrays
    and the arguments as launched. -/
theorem run : θ_run (defs (F := Ideal)) (onTc (τ := τ) (main (F := Ideal))) ⟨m, fun _ => 0, ρ⟩ (fun r => ∀ c : Dev nD,
      r.2.mem ((c.tc : Thread nD τ).loc main_v34)
        = net (fun S => scaled S (recipOf (dstOf (m ((c.tc : Thread nD τ).loc main_arg1))))) (aggOf (srcOf (m ((c.tc : Thread nD τ).loc main_arg1))) (dstOf (m ((c.tc : Thread nD τ).loc main_arg1))))
            (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ c), (h c).2⟩) (KRun.run_value m ρ)

end Cert.KernelIdeal.KFold
end
-- ==== Proof.LibSageLayer.lean ====
/-
  One layer of a mean-aggregating graph network, read at one index on the extended reals.

  A node's new feature vector is relu(mean · Wl + h · Wr + b): `mean` is the sum of the features of the node's
  in-neighbours divided by max(count, 1), `h` the node's own features, `b` a bias row.  Two spellings of the
  layer meet here.  One scales the neighbour sums by the reciprocal 1 / max(count, 1) and adds the two products
  before the bias; the other divides the sums by max(count, 1) and adds the bias between the products.  The
  divisor is at least 1, so it is never zero and the product with the reciprocal is the quotient on every
  extended real; addition of extended reals is commutative and associative, so the three summands may be
  added in either order.  No entry has to be finite for either step.
-/
import Idealize.ShloMosaic.PureOps.Ideal.Laws
import Idealize.ShloMosaic.PureOps.IdealRules
import Idealize.ShloMosaic.Lib.ValueIdx
import Idealize.ShloMosaic.Lib.ValueLayout
import Idealize.ShloMosaic.Lib.IdealHost
import Idealize.ShloMosaic.Lib.Pipeline.Value
import proofs.«104980_j58050777972868_2_alg».proof.Proof.LibRowOps
import proofs.«104980_j58050777972868_2_alg».proof.Proof.LibDense

noncomputable section

namespace Cert.Sage

open Idealize.ShloMosaic Idealize.ShloMosaic.ValueIdx Cert.RowOps Cert.Dense

/-- The value of the f32 word of 1.0. -/
abbrev one : EReal := Ideal.ofBits .f32 0x3F800000#32

theorem one_eq : one = 1 := IdealRules.sign_bit.ideal_onePat .f32

/-! ## The layer as one function of whole arrays -/

/-- relu(A · Wl + X · Wr + b) at (r, c): row r of `A` and of `X`, column c of the weights, entry c of the one-row bias. -/
def layer {M K N : Nat} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 :=
  fun i => max ((∑ k : Fin K, A (ix2 (i 0) k) * Wl (ix2 k (i 1))) + (∑ k : Fin K, X (ix2 (i 0) k) * Wr (ix2 k (i 1)))
    + b (ix2 (0 : Fin 1) (i 1))) z

theorem layer_apply {M K N : Nat} (A X : FVec Ideal ⟨2, ![M, K]⟩ .f32) (Wl Wr : FVec Ideal ⟨2, ![K, N]⟩ .f32)
    (b : FVec Ideal ⟨2, ![1, N]⟩ .f32) (r : Fin M) (c : Fin N) :
    layer A X Wl Wr b (ix2 r c)
      = max ((∑ k : Fin K, A (ix2 r k) * Wl (ix2 k c)) + (∑ k : Fin K, X (ix2 r k) * Wr (ix2 k c)) + b (ix2 (0 : Fin 1) c)) z := rfl

/-! ## One block of rows (a matmul into a zero accumulator twice, a one-row bias repeated, a maximum with a splat zero) -/

section Block

variable {M K N : Nat} {d : DotDims ⟨2, ![M, K]⟩ ⟨2, ![K, N]⟩ ⟨2, ![M, N]⟩}

theorem blockLayer_apply (hd : IsPlain d) {φ₁ φ₂ : FTy} (a x : FVec Ideal ⟨2, ![M, K]⟩ φ₁) (wl wr : FVec Ideal ⟨2, ![K, N]⟩ φ₂)
    (b : FVec Ideal ⟨2, ![1, N]⟩ .f32) (hb : (⟨2, ![1, N]⟩ : Shape).Broadcasts ⟨2, ![M, N]⟩) (r : Fin M) (c : Fin N) :
    maximumf (addf (addf (matmul d none a wl (constant ⟨2, ![M, N]⟩ .f32 0x00000000#32))
          (matmul d none x wr (constant ⟨2, ![M, N]⟩ .f32 0x00000000#32)))
        (broadcastTo ⟨2, ![M, N]⟩ b hb))
        (broadcast ⟨2, ![M, N]⟩ (Scalar.ofBits (F := Ideal) .f32 0x00000000#32)) (ix2 r c)
      = max ((∑ k : Fin K, a (ix2 r k) * wl (ix2 k c)) + (∑ k : Fin K, x (ix2 r k) * wr (ix2 k c)) + b (ix2 (0 : Fin 1) c)) z := by
  rw [maximumf_apply, addf_apply, addf_apply, broadcastTo_1b_ab_apply, broadcast_apply]
  exact congrArg₂ (fun s u => max (s + u + b (ix2 (0 : Fin 1) c)) z) (matmul_zero_apply hd none a wl r c)
    (matmul_zero_apply hd none x wr r c)

end Block

/-! ## A per-row column repeated along the rows -/

section Column

variable {α : Type} {a b : Nat}

/-- A length-a vector broadcast to an [a, 1] column and then to [a, b] reads, at (p, c), the vector at p. -/
theorem hostColumn_apply (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

end Column

/-! ## The mean, two ways -/

/-- A product with the reciprocal of max(n, 1) is the quotient by max(n, 1): the divisor is at least 1, so not zero. -/
theorem mul_recip_max (x n : EReal) : x * Ideal.div one (max n one) = Ideal.div x (max n one) := by
  rw [one_eq]
  exact Idealize.ShloMosaic.Ideal.mul_one_div (lt_of_lt_of_le zero_lt_one (le_max_right n 1)).ne'

section Mean

variable {a b : Nat}

/-- Sums scaled by the per-row reciprocal of max(count, 1) are the sums divided by max(count, 1). -/
theorem mean_eq (S : FVec Ideal ⟨2, ![a, b]⟩ .f32) (cnt : FVec Ideal ⟨1, ![a]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf cnt (broadcastInDim ⟨1, ![a]⟩ ![] h0 (constant (F := Ideal) ⟨0, ![]⟩ .f32 0x3F800000#32))))))
      = Host.divf S (broadcastInDim ⟨2, ![a, b]⟩ ![0, 1] h2 (broadcastInDim ⟨2, ![a, 1]⟩ ![0] h1
          (maximumf cnt (broadcastInDim ⟨1, ![a]⟩ ![] h0 (constant (F := Ideal) ⟨0, ![]⟩ .f32 0x3F800000#32))))) := by
  funext i
  obtain ⟨p, q, rfl⟩ : ∃ (p : Fin a) (q : Fin b), i = ix2 p q := ⟨i 0, i 1, eq_ix2 i⟩
  rw [mulf_apply, hostDivf_apply, hostColumn_apply, hostColumn_apply, hostDivf_apply, maximumf_apply,
    broadcastInDim_scalar_apply, constant_apply]
  exact mul_recip_max _ _

end Mean

/-! ## The layer over whole arrays in the host's spelling -/

section Host

variable {M K N : Nat} {d : DotDims ⟨2, ![M, K]⟩ ⟨2, ![K, N]⟩ ⟨2, ![M, N]⟩}

/-- mean · Wl, plus the bias on every row, plus X · Wr, clipped at zero, is `layer` with the bias viewed as one row. -/
theorem hostLayer_eq (hd : IsPlain d) (Mn X : FVec Ideal ⟨2, ![M, K]⟩ .f32) (Wl Wr : FVec Ideal ⟨2, ![K, N]⟩ .f32)
    (B : FVec Ideal ⟨1, ![N]⟩ .f32)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    layer Mn X Wl Wr (shapeCast ⟨2, ![1, N]⟩ B hs)
      = maximumf (addf (addf (Host.dotGeneral d none Mn Wl)
            (broadcastInDim ⟨2, ![M, N]⟩ ![0, 1] h2 (broadcastInDim ⟨2, ![1, N]⟩ ![1] h1 B)))
          (Host.dotGeneral d none X Wr))
        (broadcastInDim ⟨2, ![M, N]⟩ ![] h0 (constant (F := Ideal) ⟨0, ![]⟩ .f32 0x00000000#32)) := by
  funext i
  obtain ⟨r, c, rfl⟩ : ∃ (r : Fin M) (c : Fin N), i = ix2 r c := ⟨i 0, i 1, eq_ix2 i⟩
  rw [layer_apply, maximumf_apply, addf_apply, addf_apply, hostRowBias_apply, broadcastInDim_scalar_apply, constant_apply,
    show Host.dotGeneral d none Mn Wl (ix2 r c) = _ from hostDot_apply hd none .single Mn Wl r c,
    show Host.dotGeneral d none X Wr (ix2 r c) = _ from hostDot_apply hd none .single X Wr r c,
    shapeCast_a_1a_apply]
  exact congrArg (fun s => max s z) (add_right_comm _ _ _)

end Host

end Cert.Sage

end
-- ==== Proof.MeanLaw.lean ====
import proofs.«104980_j58050777972868_2_alg».proof.Proof.KerFold
import proofs.«104980_j58050777972868_2_alg».proof.Proof.LibSageLayer
import Idealize.ShloMosaic.Lib.IdealHost

noncomputable section

namespace Cert.KernelIdeal.KMean

open Cert.KernelIdeal Cert.KernelIdeal.Gen Idealize.ShloMosaic Idealize.ShloMosaic.ValueIdx Cert.Net Cert.KernelIdeal.KReg0 Cert.KernelIdeal.KFold

/-! ## The mean, two ways

One program scales each row of the neighbour sums by the reciprocal of the clamped in-edge count, the other divides
the row by the clamped count.  The clamped count is at least one, so it is not zero, and then the product with the
reciprocal is the quotient for every extended real: no entry of the sums has to be finite. -/

/-- A length-a vector made an [a, 1] column reads, at (p, 0), the vector at p. -/
theorem column_apply {α : Type} {a : Nat} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- The sums times the reciprocal-count column are the sums divided by the count repeated along the rows. -/
theorem scaled_eq_div (d : (⟨S625000, .i32⟩ : BufTy).Contents (Elt Ideal))
    (h2 : (⟨2, ![100000, 1]⟩ : Shape).BroadcastsInDim ⟨2, ![100000, 128]⟩ ![0, 1]) (S : FVec Ideal S100000x128 .f32) :
    scaled S (recipOf d)
      = Host.divf S (broadcastInDim S100000x128 ![0, 1] h2 (broadcastInDim S100000x1 ![0] bcast_S100000_S100000x1_0 (countOf d))) := by
  funext i
  obtain ⟨p, q, rfl⟩ : ∃ (p : Fin 100000) (q : Fin 128), i = ix2 p q := ⟨i 0, i 1, eq_ix2 i⟩
  rw [hostDivf_apply, Cert.Sage.hostColumn_apply]
  show S (ix2 p q) * recipOf d (ix2 p (0 : Fin 1)) = _
  unfold recipOf
  rw [column_apply, hostDivf_apply, broadcastInDim_scalar_apply, constant_apply]
  unfold countOf
  rw [maximumf_apply, broadcastInDim_scalar_apply, constant_apply]
  exact Cert.Sage.mul_recip_max _ _

end Cert.KernelIdeal.KMean
end
-- ==== Proof.RefOps.lean ====
/-
  The reference's host operations, in order, as three literal lists (one per window of its main function), the
  operations of each function it calls listed at the call site over that call's record of buffers.
-/
import proofs.«104980_j58050777972868_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 0 (84). -/
abbrev ops0 : List (HloOp τ sig (Elt F)) :=
  [ StableHlo.unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    StableHlo.reshape main_v0 main_v1 rfl shapeCasts_S1x625000_S625000,
    StableHlo.unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    StableHlo.reshape main_v2 main_v3 rfl shapeCasts_S1x625000_S625000,
    StableHlo.nullary main_c (constantI S_ 32 0#32),
    StableHlo.unary main_c main_v4 (broadcastInDim S625000 ![] bcast_S_S625000 : (⟨S_, .i32⟩ : BufTy).Contents (Elt F) → (⟨S625000, .i32⟩ : BufTy).Contents (Elt F)),
    StableHlo.binary main_v1 main_v4 main_v5 (cmpi .slt : (⟨S625000, .i32⟩ : BufTy).Contents (Elt F) → (⟨S625000, .i32⟩ : BufTy).Contents (Elt F) → (⟨S625000, .i1⟩ : BufTy).Contents (Elt F)),
    StableHlo.nullary main_c_0 (constantI S_ 32 100000#32),
    StableHlo.unary main_c_0 main_v6 (broadcastInDim S625000 ![] bcast_S_S625000 : (⟨S_, .i32⟩ : BufTy).Contents (Elt F) → (⟨S625000, .i32⟩ : BufTy).Contents (Elt F)),
    StableHlo.binary main_v1 main_v6 main_v7 (addi : (⟨S625000, .i32⟩ : BufTy).Contents (Elt F) → (⟨S625000, .i32⟩ : BufTy).Contents (Elt F) → (⟨S625000, .i32⟩ : BufTy).Contents (Elt F)),
    StableHlo.ternary main_v5 main_v7 main_v1 main_v8 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v8 main_v9 (broadcastInDim S625000x1 ![0] bcast_S625000_S625000x1_0 : (⟨S625000, .i32⟩ : BufTy).Contents (Elt F) → (⟨S625000x1, .i32⟩ : BufTy).Contents (Elt F)),
    StableHlo.binary main_arg0 main_v9 main_v10 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S625000x1 ![0] bcast_S625000_S625000x1_0 : (⟨S625000, .i32⟩ : BufTy).Contents (Elt F) → (⟨S625000x1, .i32⟩ : BufTy).Contents (Elt F)),
    StableHlo.ternary main_v11 main_v12 main_v10 main_v13 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    StableHlo.nullary main_cst_1 (constant S_ .f32 0x3F800000#32),
    StableHlo.unary main_cst_1 main_v14 (broadcastInDim S625000 ![] bcast_S_S625000 : (⟨S_, .f32⟩ : BufTy).Contents (Elt F) → (⟨S625000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S625000x1 ![0] bcast_S625000_S625000x1_0 : (⟨S625000, .i32⟩ : BufTy).Contents (Elt F) → (⟨S625000x1, .i32⟩ : BufTy).Contents (Elt F)),
    StableHlo.ternary main_v15 main_v16 main_v14 main_v17 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    StableHlo.binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v25 main_v26 (addf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v26 main_v27 main_v28 (addf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x00000000#32),
    StableHlo.binary main_v28 main_cst_4 main_v29 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.nullary main_cst_5 (constant S_ .f32 0x43000000#32),
    StableHlo.unary main_cst_5 main_v31 (broadcastInDim S100000x1 ![] bcast_S_S100000x1 : (⟨S_, .f32⟩ : BufTy).Contents (Elt F) → (⟨S100000x1, .f32⟩ : BufTy).Contents (Elt F)),
    StableHlo.binary main_v30 main_v31 main_v32 (Host.divf : (⟨S100000x1, .f32⟩ : BufTy).Contents (Elt F) → (⟨S100000x1, .f32⟩ : BufTy).Contents (Elt F) → (⟨S100000x1, .f32⟩ : BufTy).Contents (Elt F)),
    StableHlo.nullary main_c_6 (constantI S_ 32 0#32),
    StableHlo.TRef.nullary main_call0.cst (constant S_ .f32 0x00000000#32),
    StableHlo.TRef.binary (.of main_v28 : StableHlo.TRef sig ⟨S100000x128, .f32⟩) main_call0.cst main_call0.v0 (fun x v => Host.reduceAdd x v reducesTo_S100000x128_S100000_d1 h_S_),
    StableHlo.TRef.unary main_call0.v0 main_call0.v1 (broadcastInDim S100000x1 ![0] bcast_S100000_S100000x1_0),
    StableHlo.TRef.nullary main_call0.cst_0 (constant S_ .f32 0x43000000#32),
    StableHlo.TRef.unary main_call0.cst_0 main_call0.v2 (broadcastInDim S100000x1 ![] bcast_S_S100000x1),
    StableHlo.TRef.binary main_call0.v1 main_call0.v2 main_call0.v3 Host.divf,
    StableHlo.TRef.unary main_call0.v3 main_call0.v4 (broadcastInDim S100000x128 ![0, 1] bcast_S100000x1_S100000x128_0_1),
    StableHlo.TRef.binary (.of main_v28 : StableHlo.TRef sig ⟨S100000x128, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S100000_d1 h_S_),
    StableHlo.TRef.unary main_call0.v9 main_call0.v10 (broadcastInDim S100000x1 ![0] bcast_S100000_S100000x1_0),
    StableHlo.TRef.unary main_call0.v8 main_call0.v11 (broadcastInDim S100000x1 ![] bcast_S_S100000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S100000x1 ![] bcast_S_S100000x1),
    StableHlo.TRef.ternary main_call0.v13 main_call0.v12 main_call0.call0.v1 main_call0.call0.v2 (fun p a b => select (broadcastInDim S100000x1 ![] bcast_S_S100000x1 p) a b),
    StableHlo.unary main_v32 main_v34 (broadcastInDim S100000x128 ![0, 1] bcast_S100000x1_S100000x128_0_1 : (⟨S100000x1, .f32⟩ : BufTy).Contents (Elt F) → (⟨S100000x128, .f32⟩ : BufTy).Contents (Elt F)),
    StableHlo.binary main_v28 main_v34 main_v35 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v36 (broadcastInDim S100000x1 ![] bcast_S_S100000x1 : (⟨S_, .f32⟩ : BufTy).Contents (Elt F) → (⟨S100000x1, .f32⟩ : BufTy).Contents (Elt F)),
    StableHlo.binary main_v33 main_v36 main_v37 (addf : (⟨S100000x1, .f32⟩ : BufTy).Contents (Elt F) → (⟨S100000x1, .f32⟩ : BufTy).Contents (Elt F) → (⟨S100000x1, .f32⟩ : BufTy).Contents (Elt F)),
    StableHlo.unary main_v37 main_v38 (Host.rsqrt : (⟨S100000x1, .f32⟩ : BufTy).Contents (Elt F) → (⟨S100000x1, .f32⟩ : BufTy).Contents (Elt F)),
    StableHlo.unary main_v38 main_v39 (broadcastInDim S100000x128 ![0, 1] bcast_S100000x1_S100000x128_0_1 : (⟨S100000x1, .f32⟩ : BufTy).Contents (Elt F) → (⟨S100000x128, .f32⟩ : BufTy).Contents (Elt F)),
    StableHlo.binary main_v35 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg5 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_arg6 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v46 : StableHlo.TRef sig ⟨S100000x128, .f32⟩) main_call1.v0 main_call1.v1 maximumf,
    StableHlo.nullary main_c_8 (constantI S_ 32 0#32),
    StableHlo.unary main_c_8 main_v48 (broadcastInDim S625000 ![] bcast_S_S625000 : (⟨S_, .i32⟩ : BufTy).Contents (Elt F) → (⟨S625000, .i32⟩ : BufTy).Contents (Elt F)) ]

/-- The operations of window 1 (86). -/
abbrev ops1 : List (HloOp τ sig (Elt F)) :=
  [ StableHlo.binary main_v1 main_v48 main_v49 (cmpi .slt : (⟨S625000, .i32⟩ : BufTy).Contents (Elt F) → (⟨S625000, .i32⟩ : BufTy).Contents (Elt F) → (⟨S625000, .i1⟩ : BufTy).Contents (Elt F)),
    StableHlo.nullary main_c_9 (constantI S_ 32 100000#32),
    StableHlo.unary main_c_9 main_v50 (broadcastInDim S625000 ![] bcast_S_S625000 : (⟨S_, .i32⟩ : BufTy).Contents (Elt F) → (⟨S625000, .i32⟩ : BufTy).Contents (Elt F)),
    StableHlo.binary main_v1 main_v50 main_v51 (addi : (⟨S625000, .i32⟩ : BufTy).Contents (Elt F) → (⟨S625000, .i32⟩ : BufTy).Contents (Elt F) → (⟨S625000, .i32⟩ : BufTy).Contents (Elt F)),
    StableHlo.ternary main_v49 main_v51 main_v1 main_v52 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v52 main_v53 (broadcastInDim S625000x1 ![0] bcast_S625000_S625000x1_0 : (⟨S625000, .i32⟩ : BufTy).Contents (Elt F) → (⟨S625000x1, .i32⟩ : BufTy).Contents (Elt F)),
    StableHlo.binary main_v47 main_v53 main_v54 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    StableHlo.nullary main_cst_10 (constant S_ .f32 0x00000000#32),
    StableHlo.unary main_cst_10 main_v55 (broadcastInDim S100000x128 ![] bcast_S_S100000x128 : (⟨S_, .f32⟩ : BufTy).Contents (Elt F) → (⟨S100000x128, .f32⟩ : BufTy).Contents (Elt F)),
    StableHlo.unary main_v3 main_v56 (broadcastInDim S625000x1 ![0] bcast_S625000_S625000x1_0 : (⟨S625000, .i32⟩ : BufTy).Contents (Elt F) → (⟨S625000x1, .i32⟩ : BufTy).Contents (Elt F)),
    StableHlo.ternary main_v55 main_v56 main_v54 main_v57 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    StableHlo.nullary main_cst_11 (constant S_ .f32 0x3F800000#32),
    StableHlo.unary main_cst_11 main_v58 (broadcastInDim S625000 ![] bcast_S_S625000 : (⟨S_, .f32⟩ : BufTy).Contents (Elt F) → (⟨S625000, .f32⟩ : BufTy).Contents (Elt F)),
    StableHlo.nullary main_cst_12 (constant S_ .f32 0x00000000#32),
    StableHlo.unary main_cst_12 main_v59 (broadcastInDim S100000 ![] bcast_S_S100000 : (⟨S_, .f32⟩ : BufTy).Contents (Elt F) → (⟨S100000, .f32⟩ : BufTy).Contents (Elt F)),
    StableHlo.unary main_v3 main_v60 (broadcastInDim S625000x1 ![0] bcast_S625000_S625000x1_0 : (⟨S625000, .i32⟩ : BufTy).Contents (Elt F) → (⟨S625000x1, .i32⟩ : BufTy).Contents (Elt F)),
    StableHlo.ternary main_v59 main_v60 main_v58 main_v61 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    StableHlo.nullary main_cst_13 (constant S_ .f32 0x3F800000#32),
    StableHlo.unary main_cst_13 main_v62 (broadcastInDim S100000 ![] bcast_S_S100000 : (⟨S_, .f32⟩ : BufTy).Contents (Elt F) → (⟨S100000, .f32⟩ : BufTy).Contents (Elt F)),
    StableHlo.binary main_v61 main_v62 main_v63 (maximumf : (⟨S100000, .f32⟩ : BufTy).Contents (Elt F) → (⟨S100000, .f32⟩ : BufTy).Contents (Elt F) → (⟨S100000, .f32⟩ : BufTy).Contents (Elt F)),
    StableHlo.unary main_v63 main_v64 (broadcastInDim S100000x1 ![0] bcast_S100000_S100000x1_0 : (⟨S100000, .f32⟩ : BufTy).Contents (Elt F) → (⟨S100000x1, .f32⟩ : BufTy).Contents (Elt F)),
    StableHlo.unary main_v64 main_v65 (broadcastInDim S100000x128 ![0, 1] bcast_S100000x1_S100000x128_0_1 : (⟨S100000x1, .f32⟩ : BufTy).Contents (Elt F) → (⟨S100000x128, .f32⟩ : BufTy).Contents (Elt F)),
    StableHlo.binary main_v57 main_v65 main_v66 (Host.divf : (⟨S100000x128, .f32⟩ : BufTy).Contents (Elt F) → (⟨S100000x128, .f32⟩ : BufTy).Contents (Elt F) → (⟨S100000x128, .f32⟩ : BufTy).Contents (Elt F)),
    StableHlo.binary main_v66 main_arg7 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.binary main_v47 main_arg9 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v70 main_v71 main_v72 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x00000000#32),
    StableHlo.binary main_v72 main_cst_14 main_v73 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_v73 main_v74 (broadcastInDim S100000x1 ![0] bcast_S100000_S100000x1_0 : (⟨S100000, .f32⟩ : BufTy).Contents (Elt F) → (⟨S100000x1, .f32⟩ : BufTy).Contents (Elt F)),
    StableHlo.nullary main_cst_15 (constant S_ .f32 0x43000000#32),
    StableHlo.unary main_cst_15 main_v75 (broadcastInDim S100000x1 ![] bcast_S_S100000x1 : (⟨S_, .f32⟩ : BufTy).Contents (Elt F) → (⟨S100000x1, .f32⟩ : BufTy).Contents (Elt F)),
    StableHlo.binary main_v74 main_v75 main_v76 (Host.divf : (⟨S100000x1, .f32⟩ : BufTy).Contents (Elt F) → (⟨S100000x1, .f32⟩ : BufTy).Contents (Elt F) → (⟨S100000x1, .f32⟩ : BufTy).Contents (Elt F)),
    StableHlo.nullary main_c_16 (constantI S_ 32 0#32),
    StableHlo.TRef.nullary main_call2.cst (constant S_ .f32 0x00000000#32),
    StableHlo.TRef.binary (.of main_v72 : StableHlo.TRef sig ⟨S100000x128, .f32⟩) main_call2.cst main_call2.v0 (fun x v => Host.reduceAdd x v reducesTo_S100000x128_S100000_d1 h_S_),
    StableHlo.TRef.unary main_call2.v0 main_call2.v1 (broadcastInDim S100000x1 ![0] bcast_S100000_S100000x1_0),
    StableHlo.TRef.nullary main_call2.cst_0 (constant S_ .f32 0x43000000#32),
    StableHlo.TRef.unary main_call2.cst_0 main_call2.v2 (broadcastInDim S100000x1 ![] bcast_S_S100000x1),
    StableHlo.TRef.binary main_call2.v1 main_call2.v2 main_call2.v3 Host.divf,
    StableHlo.TRef.unary main_call2.v3 main_call2.v4 (broadcastInDim S100000x128 ![0, 1] bcast_S100000x1_S100000x128_0_1),
    StableHlo.TRef.binary (.of main_v72 : StableHlo.TRef sig ⟨S100000x128, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S100000_d1 h_S_),
    StableHlo.TRef.unary main_call2.v9 main_call2.v10 (broadcastInDim S100000x1 ![0] bcast_S100000_S100000x1_0),
    StableHlo.TRef.unary main_call2.v8 main_call2.v11 (broadcastInDim S100000x1 ![] bcast_S_S100000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S100000x1 ![] bcast_S_S100000x1),
    StableHlo.TRef.ternary main_call2.v13 main_call2.v12 main_call2.call0.v1 main_call2.call0.v2 (fun p a b => select (broadcastInDim S100000x1 ![] bcast_S_S100000x1 p) a b),
    StableHlo.unary main_v76 main_v78 (broadcastInDim S100000x128 ![0, 1] bcast_S100000x1_S100000x128_0_1 : (⟨S100000x1, .f32⟩ : BufTy).Contents (Elt F) → (⟨S100000x128, .f32⟩ : BufTy).Contents (Elt F)),
    StableHlo.binary main_v72 main_v78 main_v79 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v80 (broadcastInDim S100000x1 ![] bcast_S_S100000x1 : (⟨S_, .f32⟩ : BufTy).Contents (Elt F) → (⟨S100000x1, .f32⟩ : BufTy).Contents (Elt F)),
    StableHlo.binary main_v77 main_v80 main_v81 (addf : (⟨S100000x1, .f32⟩ : BufTy).Contents (Elt F) → (⟨S100000x1, .f32⟩ : BufTy).Contents (Elt F) → (⟨S100000x1, .f32⟩ : BufTy).Contents (Elt F)),
    StableHlo.unary main_v81 main_v82 (Host.rsqrt : (⟨S100000x1, .f32⟩ : BufTy).Contents (Elt F) → (⟨S100000x1, .f32⟩ : BufTy).Contents (Elt F)),
    StableHlo.unary main_v82 main_v83 (broadcastInDim S100000x128 ![0, 1] bcast_S100000x1_S100000x128_0_1 : (⟨S100000x1, .f32⟩ : BufTy).Contents (Elt F) → (⟨S100000x128, .f32⟩ : BufTy).Contents (Elt F)),
    StableHlo.binary main_v79 main_v83 main_v84 (mulf : (⟨S100000x128, .f32⟩ : BufTy).Contents (Elt F) → (⟨S100000x128, .f32⟩ : BufTy).Contents (Elt F) → (⟨S100000x128, .f32⟩ : BufTy).Contents (Elt F)),
    StableHlo.unary main_arg10 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v86 main_v87 (mulf : (⟨S100000x128, .f32⟩ : BufTy).Contents (Elt F) → (⟨S100000x128, .f32⟩ : BufTy).Contents (Elt F) → (⟨S100000x128, .f32⟩ : BufTy).Contents (Elt F)),
    StableHlo.unary main_arg11 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v89 main_v90 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v90 : StableHlo.TRef sig ⟨S100000x128, .f32⟩) main_call3.v0 main_call3.v1 maximumf,
    StableHlo.binary main_v91 main_arg12 main_v92 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg13 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v94 main_v95 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v95 : StableHlo.TRef sig ⟨S100000x64, .f32⟩) main_call4.v0 main_call4.v1 maximumf,
    StableHlo.binary main_v96 main_arg14 main_v97 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    StableHlo.unary main_arg15 main_v98 (broadcastInDim S1x40 ![1] bcast_S40_S1x40_1 : (⟨S40, .f32⟩ : BufTy).Contents (Elt F) → (⟨S1x40, .f32⟩ : BufTy).Contents (Elt F)),
    StableHlo.unary main_v98 main_v99 (broadcastInDim S100000x40 ![0, 1] bcast_S1x40_S100000x40_0_1 : (⟨S1x40, .f32⟩ : BufTy).Contents (Elt F) → (⟨S100000x40, .f32⟩ : BufTy).Contents (Elt F)) ]

/-- The operations of window 2 (1). -/
abbrev ops2 : List (HloOp τ sig (Elt F)) :=
  [ StableHlo.binary main_v97 main_v99 main_v100 (addf : (⟨S100000x40, .f32⟩ : BufTy).Contents (Elt F) → (⟨S100000x40, .f32⟩ : BufTy).Contents (Elt F) → (⟨S100000x40, .f32⟩ : BufTy).Contents (Elt F)) ]

end Cert.ReferenceIdeal.RefValue

end
-- ==== Proof.RefRun.lean ====
/-
  The reference's run, read back.

  The reference's main function is a straight line of host operations: each of its three windows is the line of that
  window's operations (the functions it calls unfolded at their calls, each over its own record of buffers), and the
  windows run one after the other.  Every buffer of the signature is a device buffer that no region scopes, and every
  operation determines what it writes, so from any memory every weakly fair execution terminates with each buffer at the
  fold of the operations over the launch contents.
-/
import proofs.«104980_j58050777972868_2_alg».proof.Proof.RefOps
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- All the operations of the main function, in order: the three windows' lines joined. -/
abbrev ops : List (HloOp τ sig (Elt F)) := ops0 ++ (ops1 ++ ops2)

-- eighty-four binds re-associated: the rewrite under the chain recurses once per statement
set_option maxRecDepth 8192 in
set_option maxHeartbeats 4000000 in
/-- Window 0 is its line: the called functions unfolded, sequencing re-associated to the right. -/
theorem part0_eq (c : Dev nD) : main_part0 (F := F) c = seq ops0 := by
  simp only [main_part0, fn_var.body, fn_where.body, fn_relu.body, seq, bind_assoc, pure_bind, bind_pure_unit]

set_option maxRecDepth 8192 in
set_option maxHeartbeats 4000000 in
/-- Window 1 is its line. -/
theorem part1_eq (c : Dev nD) : main_part1 (F := F) c = seq ops1 := by
  simp only [main_part1, fn_var.body, fn_where.body, fn_relu.body, fn_relu_0.body, seq, bind_assoc, pure_bind, bind_pure_unit]

/-- Window 2 is its line (one operation). -/
theorem part2_eq (c : Dev nD) : main_part2 (F := F) c = seq ops2 := rfl

/-- The main function is the whole line. -/
theorem main_eq (c : Dev nD) : main (F := F) c = seq ops := by
  show (main_part0 c >>= fun _ => main_part1 c >>= fun _ => main_part2 c) = seq (ops0 ++ (ops1 ++ ops2))
  rw [seq_append, seq_append, part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

/-- Every operation of a window names device buffers only. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

theorem ops2_sub : (ops2 : List (HloOp τ sig (Elt F))).Forall fun op => op.bufs ⊆ tcRefs τ sig :=
  binary_bufs_sub ..

theorem ops_sub : (ops : List (HloOp τ sig (Elt F))).Forall fun op => op.bufs ⊆ tcRefs τ sig :=
  List.forall_append.2 ⟨ops0_sub, List.forall_append.2 ⟨ops1_sub, ops2_sub⟩⟩

/-- Every operation of a window determines what it writes. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.1 h).elim (ops0_fresh op) fun h => (List.mem_append.1 h).elim (ops1_fresh op) (ops2_fresh op)

/-- At the compiled mesh, for any float values, from any memory with zero counters: every weakly fair execution of the
    main function terminates, and every final state has each device buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefDefs.lean ====
/-
  The reference's value, as a function of its arguments, in stages.

  Each definition below is a stretch of the reference's printed operations composed into one term of the operands that
  stretch reads.  The edge array's two rows give the source and destination index columns; features gathered at the sources
  are summed at the destinations (aggR), the destinations are counted with a floor of one (cntR), and the sums are
  divided by the counts (meanR).  A layer forms mean · Wl + bl + x · Wr (preAct), normalises each row by its mean
  (rowMean) and by the reciprocal root of its mean squared deviation plus ε (rowVar: the deviation's squares summed and divided
  by 128 − 0, chosen over a not-a-number word by the comparison 128 − 0 > 0), scales, shifts and clips at zero (normRelu).
  The head is relu(h · Wc1 + bc1) · Wc2 + bc2 (hostHead).  The whole value applies the layer twice and then the head (refOut).
-/
import proofs.«104980_j58050777972868_2_alg».proof.Proof.Gen.ReferenceIdeal
import Idealize.ShloMosaic.PureOps

noncomputable section

namespace Cert.ReferenceIdeal.RefValue

open Cert.ReferenceIdeal Cert.ReferenceIdeal.Gen Idealize.ShloMosaic

variable {F : FTy → Type} [FloatOps F]

/-! ## The index columns -/

/-- Row 0 of the edge array as a vector: the source indices as given. -/
def srcRow (ei : IVec S2x625000 32) : IVec S625000 32 :=
  shapeCast S625000 (extractStridedSlice S1x625000 ![0, 0] ei slices_S2x625000_S1x625000_0_0) shapeCasts_S1x625000_S625000

/-- Row 1 of the edge array as a vector: the destination indices. -/
def dstRow (ei : IVec S2x625000 32) : IVec S625000 32 :=
  shapeCast S625000 (extractStridedSlice S1x625000 ![1, 0] ei slices_S2x625000_S1x625000_1_0) shapeCasts_S1x625000_S625000

/-- The destination indices as a [625000, 1] column. -/
def dstIdx (ei : IVec S2x625000 32) : IVec S625000x1 32 :=
  broadcastInDim S625000x1 ![0] bcast_S625000_S625000x1_0
    (shapeCast S625000 (extractStridedSlice S1x625000 ![1, 0] ei slices_S2x625000_S1x625000_1_0) shapeCasts_S1x625000_S625000)

/-- The source indices, a negative one raised by the node count, as a [625000, 1] column. -/
def srcIdx (ei : IVec S2x625000 32) : IVec S625000x1 32 :=
  broadcastInDim S625000x1 ![0] bcast_S625000_S625000x1_0
    (select (cmpi .slt (srcRow ei) (broadcastInDim S625000 ![] bcast_S_S625000 (constantI S_ 32 0#32)))
      (addi (srcRow ei) (broadcastInDim S625000 ![] bcast_S_S625000 (constantI S_ 32 100000#32)))
      (srcRow ei))

/-! ## Aggregation -/

/-- The rows of X at the sources, summed at the destinations from a zero array. -/
def aggR (ei : IVec S2x625000 32) (X : FVec F S100000x128 .f32) : FVec F S100000x128 .f32 :=
  Host.scatterAdd scatter_S100000x128_S625000x1_S625000x128_1_0_0_1
    (broadcastInDim S100000x128 ![] bcast_S_S100000x128 (constant S_ .f32 0x00000000#32))
    (dstIdx ei)
    (Host.gather gather_S100000x128_S625000x1_S625000x128_1_0_n_n_0_1_1128 X (srcIdx ei))

/-- The number of edges arriving at each node, at least one. -/
def cntR (ei : IVec S2x625000 32) : FVec F S100000 .f32 :=
  maximumf
    (Host.scatterAdd scatter_S100000_S625000x1_S625000_n_0_0_1
      (broadcastInDim S100000 ![] bcast_S_S100000 (constant S_ .f32 0x00000000#32))
      (dstIdx ei)
      (broadcastInDim S625000 ![] bcast_S_S625000 (constant S_ .f32 0x3F800000#32)))
    (broadcastInDim S100000 ![] bcast_S_S100000 (constant S_ .f32 0x3F800000#32))

/-- The sums divided, row by row, by the counts. -/
def meanR (ei : IVec S2x625000 32) (S : FVec F S100000x128 .f32) : FVec F S100000x128 .f32 :=
  Host.divf S (broadcastInDim S100000x128 ![0, 1] bcast_S100000x1_S100000x128_0_1
    (broadcastInDim S100000x1 ![0] bcast_S100000_S100000x1_0 (cntR ei)))

/-! ## A layer -/

/-- mean · Wl, plus bl on every row, plus x · Wr. -/
def preAct (Mn X : FVec F S100000x128 .f32) (Wl : FVec F S128x128 .f32) (bl : FVec F S128 .f32) (Wr : FVec F S128x128 .f32) :
    FVec F S100000x128 .f32 :=
  addf
    (addf (Host.dotGeneral dot_S100000x128_S128x128_S100000x128_1_0_0_1_n_n none Mn Wl)
      (broadcastInDim S100000x128 ![0, 1] bcast_S1x128_S100000x128_0_1 (broadcastInDim S1x128 ![1] bcast_S128_S1x128_1 bl)))
    (Host.dotGeneral dot_S100000x128_S128x128_S100000x128_1_0_0_1_n_n none X Wr)

/-- Each row's total over 128, as a column. -/
def rowMean (h : FVec F S100000x128 .f32) : FVec F S100000x1 .f32 :=
  Host.divf
    (broadcastInDim S100000x1 ![0] bcast_S100000_S100000x1_0
      (Host.reduceAdd h (constant S_ .f32 0x00000000#32) reducesTo_S100000x128_S100000_d1 h_S_))
    (broadcastInDim S100000x1 ![] bcast_S_S100000x1 (constant S_ .f32 0x43000000#32))

/-- Each row's deviation from its mean. -/
def rowDev (h : FVec F S100000x128 .f32) : FVec F S100000x128 .f32 :=
  subf h (broadcastInDim S100000x128 ![0, 1] bcast_S100000x1_S100000x128_0_1 (rowMean h))

/-- 128 minus the float of the integer 0: the count the squared deviations are divided by. -/
def varCount : FVec F S_ .f32 :=
  subf (constant S_ .f32 0x43000000#32) (sitofp .f32 (constantI S_ 32 0#32))

/-- Each row's mean squared deviation, as a column: chosen over a not-a-number word when the count is positive. -/
def rowVar (h : FVec F S100000x128 .f32) : FVec F S100000x1 .f32 :=
  select
    (broadcastInDim S100000x1 ![] bcast_S_S100000x1 (cmpf .ogt (varCount (F := F)) (constant S_ .f32 0x00000000#32)))
    (Host.divf
      (broadcastInDim S100000x1 ![0] bcast_S100000_S100000x1_0
        (Host.reduceAdd (mulf (rowDev h) (rowDev h)) (constant S_ .f32 0x00000000#32) reducesTo_S100000x128_S100000_d1 h_S_))
      (broadcastInDim S100000x1 ![] bcast_S_S100000x1 (varCount (F := F))))
    (broadcastInDim S100000x1 ![] bcast_S_S100000x1 (constant S_ .f32 0x7FC00000#32))

/-- The rows normalised, scaled by g, shifted by be, clipped at zero. -/
def normRelu (h : FVec F S100000x128 .f32) (g be : FVec F S128 .f32) : FVec F S100000x128 .f32 :=
  maximumf
    (addf
      (mulf
        (mulf (subf h (broadcastInDim S100000x128 ![0, 1] bcast_S100000x1_S100000x128_0_1 (rowMean h)))
          (broadcastInDim S100000x128 ![0, 1] bcast_S100000x1_S100000x128_0_1
            (Host.rsqrt (addf (rowVar h) (broadcastInDim S100000x1 ![] bcast_S_S100000x1 (constant S_ .f32 0x3727C5AC#32))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 be)))
    (broadcastInDim S100000x128 ![] bcast_S_S100000x128 (constant S_ .f32 0x00000000#32))

/-- One layer: the pre-activation, normalised and clipped. -/
def hostLayer (Mn X : FVec F S100000x128 .f32) (Wl : FVec F S128x128 .f32) (bl : FVec F S128 .f32) (Wr : FVec F S128x128 .f32)
    (g be : FVec F S128 .f32) : FVec F S100000x128 .f32 :=
  normRelu (preAct Mn X Wl bl Wr) g be

/-! ## The head and the whole value -/

/-- relu(h · Wc1 + bc1) · Wc2 + bc2. -/
def hostHead (H : FVec F S100000x128 .f32) (Wc1 : FVec F S128x64 .f32) (bc1 : FVec F S64 .f32) (Wc2 : FVec F S64x40 .f32)
    (bc2 : FVec F S40 .f32) : FVec F S100000x40 .f32 :=
  addf
    (Host.dotGeneral dot_S100000x64_S64x40_S100000x40_1_0_0_1_n_n none
      (maximumf
        (addf (Host.dotGeneral dot_S100000x128_S128x64_S100000x64_1_0_0_1_n_n none H Wc1)
          (broadcastInDim S100000x64 ![0, 1] bcast_S1x64_S100000x64_0_1 (broadcastInDim S1x64 ![1] bcast_S64_S1x64_1 bc1)))
        (broadcastInDim S100000x64 ![] bcast_S_S100000x64 (constant S_ .f32 0x00000000#32)))
      Wc2)
    (broadcastInDim S100000x40 ![0, 1] bcast_S1x40_S100000x40_0_1 (broadcastInDim S1x40 ![1] bcast_S40_S1x40_1 bc2))

/-- The reference's result as a function of its sixteen arguments. -/
def refOut (ei : IVec S2x625000 32) (x : FVec F S100000x128 .f32)
    (Wl1 : FVec F S128x128 .f32) (bl1 : FVec F S128 .f32) (Wr1 : FVec F S128x128 .f32) (g1 be1 : FVec F S128 .f32)
    (Wl2 : FVec F S128x128 .f32) (bl2 : FVec F S128 .f32) (Wr2 : FVec F S128x128 .f32) (g2 be2 : FVec F S128 .f32)
    (Wc1 : FVec F S128x64 .f32) (bc1 : FVec F S64 .f32) (Wc2 : FVec F S64x40 .f32) (bc2 : FVec F S40 .f32) : FVec F S100000x40 .f32 :=
  hostHead
    (hostLayer (meanR ei (aggR ei (hostLayer (meanR ei (aggR ei x)) x Wl1 bl1 Wr1 g1 be1)))
      (hostLayer (meanR ei (aggR ei x)) x Wl1 bl1 Wr1 g1 be1) Wl2 bl2 Wr2 g2 be2)
    Wc1 bc1 Wc2 bc2

end Cert.ReferenceIdeal.RefValue

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.RefEval.lean ====
/-
  What the reference's line leaves at its result and at its arguments.

  Walking the line backwards from the result buffer, each operation's own result buffer holds its function of what its
  operand buffers held before it and every other buffer what it held before; the walk ends at the launch contents of the
  sixteen arguments, and the term it builds is the staged value (refOut) of those contents.  No operation writes an argument
  buffer, so each argument ends as it started.
-/
import proofs.«104980_j58050777972868_2_alg».proof.Proof.RefRun
import proofs.«104980_j58050777972868_2_alg».proof.Proof.RefDefs
import proofs.«104980_j58050777972868_2_alg».proof.Proof.LibLineEval
import proofs.«104980_j58050777972868_2_alg».proof.Proof.LibRegionOp

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LineEval

variable {F : FTy → Type} [FloatOps F]

/-- The whole line leaves what its three windows leave one after the other. -/
theorem after_ops (V : Valuation τ sig (Elt F)) : after ops V = after ops2 (after ops1 (after ops0 V)) :=
  (Cert.RegionOp.after_append ops0 (ops1 ++ ops2) V).trans (Cert.RegionOp.after_append ops1 ops2 (after ops0 V))

-- the gather, the scatter and the reduction are compared as wholes: only the values going into them are walked
attribute [local irreducible] Host.gather Host.scatterAdd Host.reduceAdd in
set_option maxRecDepth 16384 in
set_option maxHeartbeats 4000000 in
/-- The result buffer ends at the staged value of the arguments' launch contents. -/
theorem out_eq (V : Valuation τ sig (Elt F)) :
    after ops V (main_v100 : DevRef τ sig)
      = refOut (V (main_arg1 : DevRef τ sig)) (V (main_arg0 : DevRef τ sig))
          (V (main_arg2 : DevRef τ sig)) (V (main_arg3 : DevRef τ sig)) (V (main_arg4 : DevRef τ sig))
          (V (main_arg5 : DevRef τ sig)) (V (main_arg6 : DevRef τ sig))
          (V (main_arg7 : DevRef τ sig)) (V (main_arg8 : DevRef τ sig)) (V (main_arg9 : DevRef τ sig))
          (V (main_arg10 : DevRef τ sig)) (V (main_arg11 : DevRef τ sig))
          (V (main_arg12 : DevRef τ sig)) (V (main_arg13 : DevRef τ sig)) (V (main_arg14 : DevRef τ sig))
          (V (main_arg15 : DevRef τ sig)) := by
  rw [after_ops]
  eval_line
  rfl

/-! Each argument ends as it started: the walk passes every operation, none of which writes it. -/

set_option maxRecDepth 16384 in
theorem arg0_eq (V : Valuation τ sig (Elt F)) : after ops V (main_arg0 : DevRef τ sig) = V (main_arg0 : DevRef τ sig) := by
  rw [after_ops]
  eval_line

set_option maxRecDepth 16384 in
theorem arg1_eq (V : Valuation τ sig (Elt F)) : after ops V (main_arg1 : DevRef τ sig) = V (main_arg1 : DevRef τ sig) := by
  rw [after_ops]
  eval_line

set_option maxRecDepth 16384 in
theorem arg2_eq (V : Valuation τ sig (Elt F)) : after ops V (main_arg2 : DevRef τ sig) = V (main_arg2 : DevRef τ sig) := by
  rw [after_ops]
  eval_line

set_option maxRecDepth 16384 in
theorem arg3_eq (V : Valuation τ sig (Elt F)) : after ops V (main_arg3 : DevRef τ sig) = V (main_arg3 : DevRef τ sig) := by
  rw [after_ops]
  eval_line

set_option maxRecDepth 16384 in
theorem arg4_eq (V : Valuation τ sig (Elt F)) : after ops V (main_arg4 : DevRef τ sig) = V (main_arg4 : DevRef τ sig) := by
  rw [after_ops]
  eval_line

set_option maxRecDepth 16384 in
theorem arg5_eq (V : Valuation τ sig (Elt F)) : after ops V (main_arg5 : DevRef τ sig) = V (main_arg5 : DevRef τ sig) := by
  rw [after_ops]
  eval_line

set_option maxRecDepth 16384 in
theorem arg6_eq (V : Valuation τ sig (Elt F)) : after ops V (main_arg6 : DevRef τ sig) = V (main_arg6 : DevRef τ sig) := by
  rw [after_ops]
  eval_line

set_option maxRecDepth 16384 in
theorem arg7_eq (V : Valuation τ sig (Elt F)) : after ops V (main_arg7 : DevRef τ sig) = V (main_arg7 : DevRef τ sig) := by
  rw [after_ops]
  eval_line

set_option maxRecDepth 16384 in
theorem arg8_eq (V : Valuation τ sig (Elt F)) : after ops V (main_arg8 : DevRef τ sig) = V (main_arg8 : DevRef τ sig) := by
  rw [after_ops]
  eval_line

set_option maxRecDepth 16384 in
theorem arg9_eq (V : Valuation τ sig (Elt F)) : after ops V (main_arg9 : DevRef τ sig) = V (main_arg9 : DevRef τ sig) := by
  rw [after_ops]
  eval_line

set_option maxRecDepth 16384 in
theorem arg10_eq (V : Valuation τ sig (Elt F)) : after ops V (main_arg10 : DevRef τ sig) = V (main_arg10 : DevRef τ sig) := by
  rw [after_ops]
  eval_line

set_option maxRecDepth 16384 in
theorem arg11_eq (V : Valuation τ sig (Elt F)) : after ops V (main_arg11 : DevRef τ sig) = V (main_arg11 : DevRef τ sig) := by
  rw [after_ops]
  eval_line

set_option maxRecDepth 16384 in
theorem arg12_eq (V : Valuation τ sig (Elt F)) : after ops V (main_arg12 : DevRef τ sig) = V (main_arg12 : DevRef τ sig) := by
  rw [after_ops]
  eval_line

set_option maxRecDepth 16384 in
theorem arg13_eq (V : Valuation τ sig (Elt F)) : after ops V (main_arg13 : DevRef τ sig) = V (main_arg13 : DevRef τ sig) := by
  rw [after_ops]
  eval_line

set_option maxRecDepth 16384 in
theorem arg14_eq (V : Valuation τ sig (Elt F)) : after ops V (main_arg14 : DevRef τ sig) = V (main_arg14 : DevRef τ sig) := by
  rw [after_ops]
  eval_line

set_option maxRecDepth 16384 in
theorem arg15_eq (V : Valuation τ sig (Elt F)) : after ops V (main_arg15 : DevRef τ sig) = V (main_arg15 : DevRef τ sig) := by
  rw [after_ops]
  eval_line

end Cert.ReferenceIdeal.RefValue

end
-- ==== Proof.RefHost.lean ====
/-
  The staged value read at one index, on the extended reals.

  Every stage of the reference's value reads, at row r, row r of its operands only.  A column made from a length-a vector
  reads the vector at the row; a column repeated along the rows reads the column at the row; the host's sum along the second
  axis is the initial value plus the sum of the row.  The initial value is the zero word, whose value is 0, so the row's mean is
  its total over the value of the word of 128.  The count the squared deviations are divided by is 128 − 0 with 0 the integer
  zero converted, which is the same value; it is positive, so the comparison 128 − 0 > 0 holds and the selection takes the quotient,
  never the not-a-number word.  With these, the normalised, scaled, shifted and clipped row is the specification's layer row
  entry for entry, and the head is the specification's head row.
-/
import proofs.«104980_j58050777972868_2_alg».proof.Proof.RefDefs
import proofs.«104980_j58050777972868_2_alg».proof.Proof.Spec
import proofs.«104980_j58050777972868_2_alg».proof.Proof.LibRowOps
import Idealize.ShloMosaic.Lib.KernelVsHost
import Idealize.ShloMosaic.Lib.IdealHost

noncomputable section

namespace Cert.ReferenceIdeal.RefValue

open Cert.ReferenceIdeal Cert.ReferenceIdeal.Gen Idealize.ShloMosaic Idealize.ShloMosaic.ValueIdx
open Cert.Net Cert.Dense Cert.RowOps Cert.LayerNorm

/-! ## Columns and row sums in the host's spelling -/

section Columns

variable {α : Type} {a b : Nat}

/-- A length-a vector made an [a, 1] column reads, at (p, u), the vector at p. -/
theorem hostCol_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- An [a, 1] column repeated along a second axis reads, at (p, c), the column at (p, 0). -/
theorem hostSpread_apply (x : (⟨2, ![a, 1]⟩ : Shape).Idx → α)
    (h2 : (⟨2, ![a, 1]⟩ : Shape).BroadcastsInDim ⟨2, ![a, b]⟩ ![0, 1]) (p : Fin a) (c : Fin b) :
    broadcastInDim ⟨2, ![a, b]⟩ ![0, 1] h2 x (ix2 p c) = x (ix2 p (0 : Fin 1)) :=
  broadcastInDim_apply ![0, 1] h2 x (ix2 p c) (ix2 p (0 : Fin 1)) (fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl])

/-- The host's sum along the second axis, at row r: the initial value plus the sum of that row. -/
theorem hostRowSum_apply (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (r : Fin a) :
    Host.reduceAdd x init h' hu (ix1 r) = init ix0 + ∑ k : Fin b, x (ix2 r k) := by
  have h : (⟨2, ![a, b]⟩ : Shape).Reduces [1] ⟨1, ![a]⟩ := by
    obtain ⟨e, hb⟩ := h'
    exact ⟨e, Nat.one_pos, hb⟩
  rw [hostReduceAdd_apply, Ideal.hostReduceAdd_single h' h, eq_ix0 (Shape.Idx.first hu)]
  exact congrArg (init ix0 + ·) (Finset.sum_congr rfl fun k _ => congrArg x (lift_row h r k))

end Columns

/-! ## The two words -/

/-- The word of 128 is the real number 128. -/
theorem cN_eq : cN = ((128 : ℝ) : EReal) := by
  simp [cN, Ideal.ofBits, Ideal.ieee, -EReal.coe_mul]
  norm_num

theorem cN_pos : (0 : EReal) < cN := by
  rw [cN_eq]; exact_mod_cast (by norm_num : (0 : ℝ) < 128)

/-- 128 − 0 > 0 holds: the comparison's bit is set. -/
theorem ogt_bit : FloatOps.cmpf (F := Ideal) (φ := .f32) .ogt cN (0 : EReal) = 1#1 := by
  show BitVec.ofBool (decide ((0 : EReal) < cN)) = 1#1
  rw [decide_eq_true cN_pos]
  rfl

/-- The count the squared deviations are divided by is the value of the word of 128. -/
theorem varCount_apply : varCount (F := Ideal) ix0 = cN := by
  unfold varCount
  rw [subf_apply, constant_apply, sitofp_apply]
  show cN - FloatOps.sitofp (F := Ideal) .f32 (0#32 : BitVec 32) = cN
  rw [show FloatOps.sitofp (F := Ideal) FTy.f32 (0#32 : BitVec 32) = (0 : EReal) from sitofp_zero, sub_zero]

/-! ## A row's mean, deviation and spread -/

/-- The column of row means at (r, u): the mean of row r. -/
theorem rowMean_apply (h : FVec Ideal S100000x128 .f32) (r : Fin 100000) (u : Fin 1) :
    rowMean h (ix2 r u) = mean cN (fun k : Fin 128 => h (ix2 r k)) := by
  unfold rowMean
  rw [hostDivf_apply, hostCol_apply, hostRowSum_apply, broadcastInDim_scalar_apply, constant_apply, constant_apply,
    Ideal.ofBits_zero_f32, zero_add]
  rfl

/-- A row's deviation from its mean at (r, k). -/
theorem rowDev_apply (h : FVec Ideal S100000x128 .f32) (r : Fin 100000) (k : Fin 128) :
    rowDev h (ix2 r k) = h (ix2 r k) - mean cN (fun q : Fin 128 => h (ix2 r q)) := by
  unfold rowDev
  rw [subf_apply, hostSpread_apply, rowMean_apply]

/-- The column of mean squared deviations at (r, u): the selection takes the quotient. -/
theorem rowVar_apply (h : FVec Ideal S100000x128 .f32) (r : Fin 100000) (u : Fin 1) :
    rowVar h (ix2 r u)
      = Ideal.div (∑ k : Fin 128, (h (ix2 r k) - mean cN (fun q : Fin 128 => h (ix2 r q)))
          * (h (ix2 r k) - mean cN (fun q : Fin 128 => h (ix2 r q)))) cN := by
  unfold rowVar
  rw [select_apply, broadcastInDim_scalar_apply, cmpf_apply, varCount_apply, constant_apply, Ideal.ofBits_zero_f32, ogt_bit,
    select_one, hostDivf_apply, hostCol_apply, hostRowSum_apply, broadcastInDim_scalar_apply, varCount_apply, constant_apply,
    Ideal.ofBits_zero_f32, zero_add]
  refine congrArg (Ideal.div · cN) (Finset.sum_congr rfl fun k _ => ?_)
  rw [mulf_apply, rowDev_apply]

/-! ## The layer -/

/-- The host's reciprocal root, entry by entry. -/
theorem hostRsqrt_apply {s : Shape} {φ : FTy} (x : FVec Ideal s φ) (i : s.Idx) : Host.rsqrt x i = Ideal.rsqrt (x i) := rfl

/-- The layer's products contract the left operand's second axis with the right operand's first. -/
theorem plain128 : IsPlain dot_S100000x128_S128x128_S100000x128_1_0_0_1_n_n := ⟨rfl, rfl, rfl, rfl, rfl, rfl⟩

/-- The pre-activation at (r, q): mean · Wl, plus the bias, plus x · Wr, of row r. -/
theorem preAct_apply (Mn X : FVec Ideal S100000x128 .f32) (Wl : FVec Ideal S128x128 .f32) (bl : FVec Ideal S128 .f32)
    (Wr : FVec Ideal S128x128 .f32) (r : Fin 100000) (q : Fin 128) :
    preAct Mn X Wl bl Wr (ix2 r q)
      = (∑ a : Fin 128, Mn (ix2 r a) * Wl (ix2 a q)) + bl (ix1 q) + (∑ a : Fin 128, X (ix2 r a) * Wr (ix2 a q)) := by
  unfold preAct
  rw [addf_apply, addf_apply, hostRowBias_apply,
    show Host.dotGeneral dot_S100000x128_S128x128_S100000x128_1_0_0_1_n_n none Mn Wl (ix2 r q) = _ from
      hostDot_apply plain128 none .single Mn Wl r q,
    show Host.dotGeneral dot_S100000x128_S128x128_S100000x128_1_0_0_1_n_n none X Wr (ix2 r q) = _ from
      hostDot_apply plain128 none .single X Wr r q]

/-- The normalised, scaled, shifted and clipped array at (r, j): the reciprocal-root normalisation of row r at j. -/
theorem normRelu_apply (h : FVec Ideal S100000x128 .f32) (g be : FVec Ideal S128 .f32) (r : Fin 100000) (j : Fin 128) :
    normRelu h g be (ix2 r j) = max (byRsqrt cN eN (fun k : Fin 128 => h (ix2 r k)) j * g (ix1 j) + be (ix1 j)) z := by
  unfold normRelu
  rw [maximumf_apply, addf_apply, mulf_apply, mulf_apply, subf_apply, hostRowBias_apply, hostRowBias_apply,
    hostSpread_apply, hostSpread_apply, rowMean_apply, broadcastInDim_scalar_apply, constant_apply,
    hostRsqrt_apply, addf_apply, rowVar_apply, broadcastInDim_scalar_apply, constant_apply]
  rfl

/-- One layer of the reference is the specification's layer on the same arrays. -/
theorem hostLayer_eq (Mn X : FVec Ideal S100000x128 .f32) (Wl : FVec Ideal S128x128 .f32) (bl : FVec Ideal S128 .f32)
    (Wr : FVec Ideal S128x128 .f32) (g be : FVec Ideal S128 .f32) :
    hostLayer (F := Ideal) Mn X Wl bl Wr g be = layerArr Mn X Wl Wr bl g be := by
  funext i
  obtain ⟨r, j, rfl⟩ : ∃ (r : Fin 100000) (j : Fin 128), i = ix2 r j := ⟨i 0, i 1, eq_ix2 i⟩
  rw [layerArr_apply]
  unfold hostLayer lnRow
  rw [normRelu_apply]
  simp only [preAct_apply]

end Cert.ReferenceIdeal.RefValue

end
-- ==== Proof.RefHead.lean ====
import proofs.«104980_j58050777972868_2_alg».proof.Proof.RefDefs
import proofs.«104980_j58050777972868_2_alg».proof.Proof.Spec
import proofs.«104980_j58050777972868_2_alg».proof.Proof.LibDense

noncomputable section

namespace Cert.ReferenceIdeal.RefValue

open Cert.ReferenceIdeal Cert.ReferenceIdeal.Gen Idealize.ShloMosaic Idealize.ShloMosaic.ValueIdx Cert.RowOps Cert.Dense Cert.Net

theorem plainHead1 : IsPlain dot_S100000x128_S128x64_S100000x64_1_0_0_1_n_n := ⟨rfl, rfl, rfl, rfl, rfl, rfl⟩
theorem plainHead2 : IsPlain dot_S100000x64_S64x40_S100000x40_1_0_0_1_n_n := ⟨rfl, rfl, rfl, rfl, rfl, rfl⟩

/-- The head in the host's operations is the head of the specification, row by row: a product, a bias on every
    row, a clip at zero, a second product and a second bias read at (r, c). -/
theorem hostHead_eq (H : FVec Ideal S100000x128 .f32) (Wc1 : FVec Ideal S128x64 .f32) (bc1 : FVec Ideal S64 .f32)
    (Wc2 : FVec Ideal S64x40 .f32) (bc2 : FVec Ideal S40 .f32) :
    hostHead (F := Ideal) H Wc1 bc1 Wc2 bc2 = headArr H Wc1 bc1 Wc2 bc2 := by
  funext i
  obtain ⟨r, c, rfl⟩ : ∃ (r : Fin 100000) (c : Fin 40), i = ix2 r c := ⟨i 0, i 1, eq_ix2 i⟩
  rw [headArr_apply]
  unfold hostHead headRow
  rw [addf_apply, hostRowBias_apply]
  refine congrArg (· + bc2 (ix1 c)) ((hostDot_apply plainHead2 none .single _ Wc2 r c).trans (Finset.sum_congr rfl fun k _ => ?_))
  exact congrArg (· * Wc2 (ix2 k c)) (hostEncode_apply plainHead1 H Wc1 bc1 _ _ _ r k)

end Cert.ReferenceIdeal.RefValue
end
-- ==== Proof.RefValue.lean ====
/-
  The reference's value.

  The staged value of the reference is the specification's network with the reference's own aggregation and mean: each of
  its two layers is the specification's layer on the same arrays, and its head is the specification's head.  So from any
  memory, every weakly fair execution of the reference ends with its result buffer at that network of the launch contents
  of its arguments, and with every argument as it started.
-/
import proofs.«104980_j58050777972868_2_alg».proof.Proof.RefEval
import proofs.«104980_j58050777972868_2_alg».proof.Proof.RefHost
import proofs.«104980_j58050777972868_2_alg».proof.Proof.RefHead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The staged value is the specification's network over the reference's aggregation and mean. -/
theorem refOut_eq_net (ei : IVec S2x625000 32) (x : FVec Ideal S100000x128 .f32)
    (Wl1 : FVec Ideal S128x128 .f32) (bl1 : FVec Ideal S128 .f32) (Wr1 : FVec Ideal S128x128 .f32) (g1 be1 : FVec Ideal S128 .f32)
    (Wl2 : FVec Ideal S128x128 .f32) (bl2 : FVec Ideal S128 .f32) (Wr2 : FVec Ideal S128x128 .f32) (g2 be2 : FVec Ideal S128 .f32)
    (Wc1 : FVec Ideal S128x64 .f32) (bc1 : FVec Ideal S64 .f32) (Wc2 : FVec Ideal S64x40 .f32) (bc2 : FVec Ideal S40 .f32) :
    refOut (F := Ideal) ei x Wl1 bl1 Wr1 g1 be1 Wl2 bl2 Wr2 g2 be2 Wc1 bc1 Wc2 bc2
      = Cert.Net.net (meanR ei) (aggR ei) x Wl1 bl1 Wr1 g1 be1 Wl2 bl2 Wr2 g2 be2 Wc1 bc1 Wc2 bc2 := by
  unfold refOut Cert.Net.net
  rw [hostHead_eq, hostLayer_eq, hostLayer_eq]

/-- At the compiled mesh, at the ideal values, from any memory with zero counters: every weakly fair execution of the
    reference terminates with its result buffer at the specification's network of the arguments' launch contents — the
    aggregation and the mean the reference's own — and with each argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100)
        = Cert.Net.net (meanR (m ((c.tc : Thread nD τ).loc main_arg1))) (aggR (m ((c.tc : Thread nD τ).loc main_arg1)))
            (m ((c.tc : Thread nD τ).loc main_arg0))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    ⟨((h c main_v100).trans (out_eq (launchContents m c))).trans (refOut_eq_net ..),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c)), (h c main_arg7).trans (arg7_eq (launchContents m c)),
      (h c main_arg8).trans (arg8_eq (launchContents m c)), (h c main_arg9).trans (arg9_eq (launchContents m c)),
      (h c main_arg10).trans (arg10_eq (launchContents m c)), (h c main_arg11).trans (arg11_eq (launchContents m c)),
      (h c main_arg12).trans (arg12_eq (launchContents m c)), (h c main_arg13).trans (arg13_eq (launchContents m c)),
      (h c main_arg14).trans (arg14_eq (launchContents m c)), (h c main_arg15).trans (arg15_eq (launchContents m c))⟩)
    (run_main m ρ)

end Cert.ReferenceIdeal.RefValue

end
-- ==== Proof.lean ====
/-
  Equivalence on the extended reals of a fused two-layer mean-aggregating graph network (two pipelined regions among
  host gathers and scatter-adds) with its whole-array reference.

  Both programs split the edge list into sources and destinations, count every node's in-edges, and twice gather the
  rows of a feature array at the sources and add them up at the destinations; those operations are the same on both
  sides and are carried as one opaque chain.  Between them each program applies, row by row,
      h = mean · Wl + bl + x · Wr,   LayerNorm(h) · g + be clipped at zero,
  and after the second layer the head relu(· Wc1 + bc1) · Wc2 + bc2.  Every entry of a layer's result reads one row
  of its inputs, so the ten row blocks of a region tile one whole-array function (`Cert.Net.net`), which is also what
  the reference's operations compute index by index: a matrix product into a zero accumulator and the host's
  dot_general are the same sum, a lane reduction and the host's reduce the same row sum, the variance function's divisor
  128 − 0 is 128 and its guard 128 > 0 holds.  The one difference is the mean: the fused program multiplies the
  neighbour sums by 1 / max(count, 1), the reference divides them by max(count, 1).  The divisor is at least one, so
  the two agree on every extended real and no input has to be finite: the precondition is not used.
  The ideal pass rewrote nothing, so the idealised program is the program read on the extended reals.
-/
import proofs.«104980_j58050777972868_2_alg».proof.Defs
import proofs.«104980_j58050777972868_2_alg».proof.Proof.Gen.Kernel
import proofs.«104980_j58050777972868_2_alg».proof.Proof.Gen.Kernel.Frame
import proofs.«104980_j58050777972868_2_alg».proof.Proof.Gen.KernelIdeal
import proofs.«104980_j58050777972868_2_alg».proof.Proof.Gen.KernelIdeal.Frame
import proofs.«104980_j58050777972868_2_alg».proof.Proof.Gen.ReferenceIdeal
import proofs.«104980_j58050777972868_2_alg».proof.Proof.Gen.Pre_finite_inputs
import proofs.«104980_j58050777972868_2_alg».proof.Proof.KerFold
import proofs.«104980_j58050777972868_2_alg».proof.Proof.MeanLaw
import proofs.«104980_j58050777972868_2_alg».proof.Proof.RefValue
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-! ## The two programs aggregate alike and their means agree -/

open Cert.KernelIdeal.KFold Cert.KernelIdeal.KReg0 in
/-- The reference's aggregation is the fused program's: the same gather and scatter-add at the same indices. -/
theorem agg_eq (ei : (⟨Cert.KernelIdeal.S2x625000, .i32⟩ : BufTy).Contents (Elt Ideal)) :
    Cert.ReferenceIdeal.RefValue.aggR ei = aggOf (srcOf ei) (dstOf ei) := rfl

open Cert.KernelIdeal.KFold Cert.KernelIdeal.KReg0 in
/-- The reference's mean (sums divided by the clamped count) is the fused program's (sums times its reciprocal). -/
theorem mean_eq (ei : (⟨Cert.KernelIdeal.S2x625000, .i32⟩ : BufTy).Contents (Elt Ideal)) :
    Cert.ReferenceIdeal.RefValue.meanR ei = fun S => scaled S (recipOf (dstOf ei)) :=
  funext fun S => (Cert.KernelIdeal.KMean.scaled_eq_div (dstOf ei) Cert.ReferenceIdeal.Gen.bcast_S100000x1_S100000x128_0_1 S).symm

/-! ## The claims -/

/-- From memories agreeing on the arguments both programs end with the result array at the same network of the
    argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KFold.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11, a12, a13, a14, a15⟩ := hagree c
  rw [a0, a1, a2, a3, a4, a5, a6, a7, a8, a9, a10, a11, a12, a13, a14, a15, agg_eq, mean_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
